-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64 .f32) (main_arg8 : FVec F S64 .f32) (main_arg9 : FVec F S64 .f32) (main_arg10 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x64 .f32) (main_arg1 : FVec F S27x64x64 .f32) (main_arg2 : FVec F S27x64x64 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : IVec S27x100000 32) (main_arg12 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S27x64x64 .f32 := Host.absf main_arg2
  let main_cst_2 : FVec F S_ .f32 := constant S_ .f32 0x7F800000#32
  let main_v10 : FVec F S27x64x64 .f32 := broadcastInDim S27x64x64 ![] bcast_S_S27x64x64 main_cst_2
  let main_v11 : IVec S27x64x64 1 := cmpf .olt main_v9 main_v10
  let main_c_3 : IVec S_ 1 := constantI S_ 1 1#1
  let main_v12 : IVec S_ 1 := (fun x v => Host.reduce IntOp.andi x v reducesTo_S27x64x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩
abbrev S1x10000x64 : Shape := ⟨3, ![1, 10000, 64]⟩
abbrev S10000x64 : Shape := ⟨2, ![10000, 64]⟩
abbrev S100000x128 : Shape := ⟨2, ![100000, 128]⟩
abbrev S2x64 : Shape := ⟨2, ![2, 64]⟩
abbrev S128 : Shape := ⟨1, ![128]⟩
abbrev S1x128 : Shape := ⟨2, ![1, 128]⟩
abbrev S5000x128 : Shape := ⟨2, ![5000, 128]⟩

abbrev nBuf : Space → Nat
  | .hbm => 85
  | .vmem => 26
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S27x64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S27x100000, .i32⟩
  | .hbm, ⟨12, _⟩ => ⟨S27x100000, .i32⟩
  | .hbm, ⟨13, _⟩ => ⟨S200000x64, .bf16⟩
  | .hbm, ⟨14, _⟩ => ⟨S_, .i32⟩
  | .hbm, ⟨15, _⟩ => ⟨S27x100000, .i32⟩
  | .hbm, ⟨16, _⟩ => ⟨S27x100000, .i1⟩
  | .hbm, ⟨17, _⟩ => ⟨S_, .i32⟩
  | .hbm, ⟨18, _⟩ => ⟨S27x100000, .i32⟩
  | .hbm, ⟨19, _⟩ => ⟨S27x100000, .i32⟩
  | .hbm, ⟨20, _⟩ => ⟨S27x100000, .i32⟩
  | .hbm, ⟨21, _⟩ => ⟨S27x100000x1, .i32⟩
  | .hbm, ⟨22, _⟩ => ⟨S27x100000x64, .bf16⟩
  | .hbm, ⟨23, _⟩ => ⟨S27x100000x64, .f32⟩
  | .hbm, ⟨24, _⟩ => ⟨S_, .f32⟩
  | .hbm, ⟨25, _⟩ => ⟨S200000x64, .f32⟩
  | .hbm, ⟨26, _⟩ => ⟨S2700000, .i32⟩
  | .hbm, ⟨27, _⟩ => ⟨S2700000x64, .f32⟩
  | .hbm, ⟨28, _⟩ => ⟨S_, .i32⟩
  | .hbm, ⟨29, _⟩ => ⟨S2700000, .i32⟩
  | .hbm, ⟨30, _⟩ => ⟨S2700000, .i1⟩
  | .hbm, ⟨31, _⟩ => ⟨S_, .i32⟩
  | .hbm, ⟨32, _⟩ => ⟨S2700000, .i32⟩
  | .hbm, ⟨33, _⟩ => ⟨S2700000, .i32⟩
  | .hbm, ⟨34, _⟩ => ⟨S2700000, .i32⟩
  | .hbm, ⟨35, _⟩ => ⟨S2700000x1, .i32⟩
  | .hbm, ⟨36, _⟩ => ⟨S200000x64, .f32⟩
  | .hbm, ⟨37, _⟩ => ⟨S200000x64, .bf16⟩
  | .hbm, ⟨38, _⟩ => ⟨S_, .i32⟩
  | .hbm, ⟨39, _⟩ => ⟨S27x100000, .i32⟩
  | .hbm, ⟨40, _⟩ => ⟨S27x100000, .i1⟩
  | .hbm, ⟨41, _⟩ => ⟨S_, .i32⟩
  | .hbm, ⟨42, _⟩ => ⟨S27x100000, .i32⟩
  | .hbm, ⟨43, _⟩ => ⟨S27x100000, .i32⟩
  | .hbm, ⟨44, _⟩ => ⟨S27x100000, .i32⟩
  | .hbm, ⟨45, _⟩ => ⟨S27x100000x1, .i32⟩
  | .hbm, ⟨46, _⟩ => ⟨S27x100000x64, .bf16⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S27x100000x64, .f32⟩
  | .hbm, ⟨52, _⟩ => ⟨S_, .f32⟩
  | .hbm, ⟨53, _⟩ => ⟨S200000x64, .f32⟩
  | .hbm, ⟨54, _⟩ => ⟨S2700000, .i32⟩
  | .hbm, ⟨55, _⟩ => ⟨S2700000x64, .f32⟩
  | .hbm, ⟨56, _⟩ => ⟨S_, .i32⟩
  | .hbm, ⟨57, _⟩ => ⟨S2700000, .i32⟩
  | .hbm, ⟨58, _⟩ => ⟨S2700000, .i1⟩
  | .hbm, ⟨59, _⟩ => ⟨S_, .i32⟩
  | .hbm, ⟨60, _⟩ => ⟨S2700000, .i32⟩
  | .hbm, ⟨61, _⟩ => ⟨S2700000, .i32⟩
  | .hbm, ⟨62, _⟩ => ⟨S2700000, .i32⟩
  | .hbm, ⟨63, _⟩ => ⟨S2700000x1, .i32⟩
  | .hbm, ⟨64, _⟩ => ⟨S200000x64, .f32⟩
  | .hbm, ⟨65, _⟩ => ⟨S100000x128, .f32⟩
  | .hbm, ⟨66, _⟩ => ⟨S100000x128, .f32⟩
  | .hbm, ⟨67, _⟩ => ⟨S1x64, .f32⟩
  | .hbm, ⟨68, _⟩ => ⟨S2x64, .f32⟩
  | .hbm, ⟨69, _⟩ => ⟨S128, .f32⟩
  | .hbm, ⟨70, _⟩ => ⟨S1x128, .f32⟩
  | .hbm, ⟨71, _⟩ => ⟨S1x64, .f32⟩
  | .hbm, ⟨72, _⟩ => ⟨S2x64, .f32⟩
  | .hbm, ⟨73, _⟩ => ⟨S128, .f32⟩
  | .hbm, ⟨74, _⟩ => ⟨S1x128, .f32⟩
  | .hbm, ⟨75, _⟩ => ⟨S1x64, .f32⟩
  | .hbm, ⟨76, _⟩ => ⟨S2x64, .f32⟩
  | .hbm, ⟨77, _⟩ => ⟨S128, .f32⟩
  | .hbm, ⟨78, _⟩ => ⟨S1x128, .f32⟩
  | .hbm, ⟨79, _⟩ => ⟨S1x64, .f32⟩
  | .hbm, ⟨80, _⟩ => ⟨S2x64, .f32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S200000x64, .f32⟩
  | .local _ .vmem, ⟨0, _⟩ => ⟨S1x20000x64, .bf16⟩
  | .local _ .vmem, ⟨1, _⟩ => ⟨S1x20000x64, .bf16⟩
  | .local _ .vmem, ⟨2, _⟩ => ⟨S1x64x64, .f32⟩
  | .local _ .vmem, ⟨3, _⟩ => ⟨S1x64x64, .f32⟩
  | .local _ .vmem, ⟨4, _⟩ => ⟨S1x20000x64, .f32⟩
  | .local _ .vmem, ⟨5, _⟩ => ⟨S1x20000x64, .f32⟩
  | .local _ .vmem, ⟨6, _⟩ => ⟨S1x10000x64, .bf16⟩
  | .local _ .vmem, ⟨7, _⟩ => ⟨S1x10000x64, .bf16⟩
  | .local _ .vmem, ⟨8, _⟩ => ⟨S1x64x64, .f32⟩
  | .local _ .vmem, ⟨9, _⟩ => ⟨S1x64x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x10000x64, .f32⟩
  | .local _ .vmem, ⟨15, _⟩ => ⟨S1x10000x64, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![27, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  shapeCasts_S64_S1x64 : S64.ShapeCasts S1x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S1x10000x64 : S10000x64.ShapeCasts S1x10000x64
  shapeCasts_S200000x64_S100000x128 : S200000x64.ShapeCasts S100000x128
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000x128_S200000x64 : S100000x128.ShapeCasts S200000x64
  gather_S200000x64_S27x100000x1_S27x100000x64_2_0_n_n_0_2_164_wf : GatherDims.WF S200000x64 S27x100000x1 S27x100000x64 [2] [0] [] [0] [] 2 ![1, 64]
  dot_S20000x64_S64x64_S20000x64_1_0_0_1_n_n_wf : DotDims.WF S20000x64 S64x64 S20000x64 [1] [0] [0] [1] [] []
  scatter_S200000x64_S2700000x1_S2700000x64_1_0_0_1_wf : ScatterDims.WF S200000x64 S2700000x1 S2700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x100000x64.size a
  hwx0_0 : ∀ i : grid0.Coords, EltTy.bits .bf16 = 32 ∨ (Rect.block (s := S27x100000x64) S1x20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .f32 = 32 ∨ (Rect.block (s := S27x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x100000x64.size a
  hwx0_2 : ∀ i : grid0.Coords, EltTy.bits .f32 = 32 ∨ (Rect.block (s := S27x100000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x64.size a ≤ S27x100000x64.size a
  hwx1_0 : ∀ i : grid1.Coords, EltTy.bits .bf16 = 32 ∨ (Rect.block (s := S27x100000x64) S1x10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S27x64x64.size a
  hwx1_1 : ∀ i : grid1.Coords, EltTy.bits .f32 = 32 ∨ (Rect.block (s := S27x64x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x10000x64.size a ≤ S27x100000x64.size a
  hwx1_6 : ∀ i : grid1.Coords, EltTy.bits .f32 = 32 ∨ (Rect.block (s := S27x100000x64) S1x10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v7) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S1x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S27x64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S27x100000, .i32⟩
  | .hbm, ⟨12, _⟩ => ⟨S27x100000, .i32⟩
  | .hbm, ⟨13, _⟩ => ⟨S_, .i32⟩
  | .hbm, ⟨14, _⟩ => ⟨S27x100000, .i32⟩
  | .hbm, ⟨15, _⟩ => ⟨S27x100000, .i1⟩
  | .hbm, ⟨16, _⟩ => ⟨S_, .i32⟩
  | .hbm, ⟨17, _⟩ => ⟨S27x100000, .i32⟩
  | .hbm, ⟨18, _⟩ => ⟨S27x100000, .i32⟩
  | .hbm, ⟨19, _⟩ => ⟨S27x100000, .i32⟩
  | .hbm, ⟨20, _⟩ => ⟨S27x100000x1, .i32⟩
  | .hbm, ⟨21, _⟩ => ⟨S27x100000x64, .f32⟩
  | .hbm, ⟨22, _⟩ => ⟨S27x100000x64, .f32⟩
  | .hbm, ⟨23, _⟩ => ⟨S_, .f32⟩
  | .hbm, ⟨24, _⟩ => ⟨S200000x64, .f32⟩
  | .hbm, ⟨25, _⟩ => ⟨S2700000, .i32⟩
  | .hbm, ⟨26, _⟩ => ⟨S2700000x64, .f32⟩
  | .hbm, ⟨27, _⟩ => ⟨S_, .i32⟩
  | .hbm, ⟨28, _⟩ => ⟨S2700000, .i32⟩
  | .hbm, ⟨29, _⟩ => ⟨S2700000, .i1⟩
  | .hbm, ⟨30, _⟩ => ⟨S_, .i32⟩
  | .hbm, ⟨31, _⟩ => ⟨S2700000, .i32⟩
  | .hbm, ⟨32, _⟩ => ⟨S2700000, .i32⟩
  | .hbm, ⟨33, _⟩ => ⟨S2700000, .i32⟩
  | .hbm, ⟨34, _⟩ => ⟨S2700000x1, .i32⟩
  | .hbm, ⟨35, _⟩ => ⟨S200000x64, .f32⟩
  | .hbm, ⟨36, _⟩ => ⟨S1x64, .f32⟩
  | .hbm, ⟨37, _⟩ => ⟨S200000x64, .f32⟩
  | .hbm, ⟨38, _⟩ => ⟨S200000x64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S200000x64, .f32⟩
  | .hbm, ⟨45, _⟩ => ⟨S200000x64, .f32⟩
  | .hbm, ⟨46, _⟩ => ⟨S1x64, .f32⟩
  | .hbm, ⟨47, _⟩ => ⟨S200000x64, .f32⟩
  | .hbm, ⟨48, _⟩ => ⟨S200000x64, .f32⟩
  | .hbm, ⟨49, _⟩ => ⟨S1x64, .f32⟩
  | .hbm, ⟨50, _⟩ => ⟨S200000x64, .f32⟩
  | .hbm, ⟨51, _⟩ => ⟨S200000x64, .f32⟩
  | .hbm, ⟨52, _⟩ => ⟨S_, .f32⟩
  | .hbm, ⟨53, _⟩ => ⟨S200000x64, .f32⟩
  | .hbm, ⟨54, _⟩ => ⟨S200000x64, .f32⟩
  | .hbm, ⟨55, _⟩ => ⟨S_, .i32⟩
  | .hbm, ⟨56, _⟩ => ⟨S27x100000, .i32⟩
  | .hbm, ⟨57, _⟩ => ⟨S27x100000, .i1⟩
  | .hbm, ⟨58, _⟩ => ⟨S_, .i32⟩
  | .hbm, ⟨59, _⟩ => ⟨S27x100000, .i32⟩
  | .hbm, ⟨60, _⟩ => ⟨S27x100000, .i32⟩
  | .hbm, ⟨61, _⟩ => ⟨S27x100000, .i32⟩
  | .hbm, ⟨62, _⟩ => ⟨S27x100000x1, .i32⟩
  | .hbm, ⟨63, _⟩ => ⟨S27x100000x64, .f32⟩
  | .hbm, ⟨64, _⟩ => ⟨S27x100000x64, .f32⟩
  | .hbm, ⟨65, _⟩ => ⟨S_, .f32⟩
  | .hbm, ⟨66, _⟩ => ⟨S200000x64, .f32⟩
  | .hbm, ⟨67, _⟩ => ⟨S2700000, .i32⟩
  | .hbm, ⟨68, _⟩ => ⟨S2700000x64, .f32⟩
  | .hbm, ⟨69, _⟩ => ⟨S_, .i32⟩
  | .hbm, ⟨70, _⟩ => ⟨S2700000, .i32⟩
  | .hbm, ⟨71, _⟩ => ⟨S2700000, .i1⟩
  | .hbm, ⟨72, _⟩ => ⟨S_, .i32⟩
  | .hbm, ⟨73, _⟩ => ⟨S2700000, .i32⟩
  | .hbm, ⟨74, _⟩ => ⟨S2700000, .i32⟩
  | .hbm, ⟨75, _⟩ => ⟨S2700000, .i32⟩
  | .hbm, ⟨76, _⟩ => ⟨S2700000x1, .i32⟩
  | .hbm, ⟨77, _⟩ => ⟨S200000x64, .f32⟩
  | .hbm, ⟨78, _⟩ => ⟨S1x64, .f32⟩
  | .hbm, ⟨79, _⟩ => ⟨S200000x64, .f32⟩
  | .hbm, ⟨80, _⟩ => ⟨S200000x64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64, .f32⟩
  | .hbm, ⟨85, _⟩ => ⟨S1x64, .f32⟩
  | .hbm, ⟨86, _⟩ => ⟨S200000x64, .f32⟩
  | .hbm, ⟨87, _⟩ => ⟨S200000x64, .f32⟩
  | .hbm, ⟨88, _⟩ => ⟨S1x64, .f32⟩
  | .hbm, ⟨89, _⟩ => ⟨S200000x64, .f32⟩
  | .hbm, ⟨90, _⟩ => ⟨S200000x64, .f32⟩
  | .hbm, ⟨91, _⟩ => ⟨S1x64, .f32⟩
  | .hbm, ⟨92, _⟩ => ⟨S200000x64, .f32⟩
  | .hbm, ⟨93, _⟩ => ⟨S200000x64, .f32⟩
  | .hbm, ⟨94, _⟩ => ⟨S200000x64, .f32⟩
  | .hbm, ⟨95, _⟩ => ⟨S_, .f32⟩
  | .hbm, ⟨96, _⟩ => ⟨S200000x64, .f32⟩
  | .hbm, ⟨97, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call1_cst : Ref sig .tc := ⟨.hbm, 95, rfl⟩
abbrev main_call1_v0 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S64 : S_.BroadcastsInDim S64 (![] : Fin 0 → Fin S64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S2700000x1_S2700000x64_1_0_0_1_wf : ScatterDims.WF S200000x64 S2700000x1 S2700000x64 [1] [0] [0] 1

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

class Facts : Prop extends Facts₀ where

variable [Facts]
-- ==== Proof.KRun.lean ====
/-
  The idealized kernel program's run with its RESULT named.  @main is three kernel regions among four stretches
  of host operations; the buffer contents at each boundary are a fold from the launch memory: a stretch applies
  its operations, a region leaves each of its arrays at what the grid's write-backs compose to and every other
  buffer as it found it.  Every weakly fair execution terminates with the result array at that fold's last
  stage read at the result's buffer, and with the arguments as launched.
-/
import proofs.«160069_j68350109548654_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the thirteen argument arrays as launched. -/
theorem run_value : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.KRun

end
-- ==== Proof.Spec.lean ====
/-
  The whole-array functions the two programs are compared through, over literal shapes.

  * `gemm g w`: the per-offset product of a gathered feature array g : [27, 100000, 64] with the offset's weight
    matrix w : [27, 64, 64] — entry (k, m, d) is the sum over the input channel c of g (k, m, c) · w (k, c, d).
  * `bnRelu h γ β μ v`: inference batch norm followed by a rectifier on a [200000, 64] array, channel by channel —
    entry (i, c) is max (((h (i, c) − μ c) · rsqrt (v c + ε)) · γ c + β c) 0 with ε the f32 word 0x3727C5AC.
  * `gemmBn γ β μ v g w`: the per-offset product with that batch norm and rectifier applied to g's entries first.
-/
import Idealize.ShloMosaic.PureOps.Ideal
import Idealize.ShloMosaic.Lib.ValueIdx

noncomputable section

namespace Cert.Spec

open Idealize.ShloMosaic Idealize.ShloMosaic.ValueIdx

abbrev SG : Shape := ⟨3, ![27, 100000, 64]⟩
abbrev SW : Shape := ⟨3, ![27, 64, 64]⟩
abbrev SX : Shape := ⟨2, ![200000, 64]⟩
abbrev SC : Shape := ⟨1, ![64]⟩

/-- The per-offset matrix product: (k, m, d) ↦ ∑ c, g (k, m, c) · w (k, c, d). -/
def gemm (g : SG.Idx → EReal) (w : SW.Idx → EReal) : SG.Idx → EReal :=
  fun i => ∑ k : Fin 64, g (ix3 (i 0) (i 1) k) * w (ix3 (i 0) k (i 2))

/-- Batch norm and rectifier of one entry h of channel c. -/
def bnReluAt (γ β μ v : SC.Idx → EReal) (h : EReal) (c : Fin 64) : EReal :=
  max (((h - μ (ix1 c)) * Ideal.rsqrt (v (ix1 c) + Ideal.ofBits .f32 0x3727C5AC#32)) * γ (ix1 c) + β (ix1 c))
    (Ideal.ofBits .f32 0x00000000#32)

abbrev SR : Shape := ⟨2, ![1, 64]⟩

/-- A [1, 64] row read as a vector over the 64 channels. -/
def row (P : SR.Idx → EReal) : SC.Idx → EReal := fun a => P (ix2 (0 : Fin 1) (a 0))

/-- The second convolution's per-offset product with batch norm and rectifier applied, channel by channel, to the
    gathered rows first: (k, m, d) ↦ ∑ c, bnRelu (g (k, m, c)) c · w (k, c, d). -/
def gemmBn (γ β μ v : SC.Idx → EReal) (g : SG.Idx → EReal) (w : SW.Idx → EReal) : SG.Idx → EReal :=
  fun i => ∑ k : Fin 64, bnReluAt γ β μ v (g (ix3 (i 0) (i 1) k)) k * w (ix3 (i 0) k (i 2))

end Cert.Spec

end
-- ==== Proof.Mid.lean ====
/-
  The common form both programs are brought to, over the reference's shapes and dimension records.

  A sparse convolution is gather – per-offset product – scatter-add: `scatterRows` adds the rows of a [27, 100000, 64]
  array into a zero [200000, 64] array at the rows the output map names; `conv1` is the first convolution of the
  input; `conv2` the second convolution, of the normalised and rectified first one, written with the batch norm and
  rectifier applied to the GATHERED rows (they act entrywise with per-channel parameters, so they commute with the
  row gather); `tail` the second batch norm, the residual sum and the last rectifier.
-/
import proofs.«160069_j68350109548654_2_alg».proof.ReferenceIdeal
import proofs.«160069_j68350109548654_2_alg».proof.Proof.Gen.ReferenceIdeal
import proofs.«160069_j68350109548654_2_alg».proof.Proof.Spec

noncomputable section

namespace Cert.Mid

open Cert.ReferenceIdeal Cert.ReferenceIdeal.Gen Idealize.ShloMosaic Idealize.ShloMosaic.TcCoe Idealize.SL.Sem Idealize.ShloMosaic.StableHlo
open Cert.Spec

/-- The start indices of the row gather: the input map with negative entries wrapped by 200000, as a column. -/
def idxIn (i11 : IVec S27x100000 32) : IVec S27x100000x1 32 :=
  broadcastInDim S27x100000x1 ![0, 1] bcast_S27x100000_S27x100000x1_0_1 (select (cmpi .slt i11 (broadcastInDim S27x100000 ![] bcast_S_S27x100000 (constantI S_ 32 0#32))) (addi i11 (broadcastInDim S27x100000 ![] bcast_S_S27x100000 (constantI S_ 32 200000#32))) i11)

/-- The scatter indices: the output map flattened, negative entries wrapped by 200000, as a column. -/
def idxOut (i12 : IVec S27x100000 32) : IVec S2700000x1 32 :=
  broadcastInDim S2700000x1 ![0] bcast_S2700000_S2700000x1_0 (select (cmpi .slt (shapeCast _ i12 shapeCasts_S27x100000_S2700000) (broadcastInDim S2700000 ![] bcast_S_S2700000 (constantI S_ 32 0#32))) (addi (shapeCast _ i12 shapeCasts_S27x100000_S2700000) (broadcastInDim S2700000 ![] bcast_S_S2700000 (constantI S_ 32 200000#32))) (shapeCast _ i12 shapeCasts_S27x100000_S2700000))

/-- The rows of y added into a zero array at the rows the output map names (at any float instance). -/
def scatterRows {F : FTy → Type} [FloatOps F] (i12 : IVec S27x100000 32) (y : FVec F S27x100000x64 .f32) : FVec F S200000x64 .f32 :=
  Host.scatterAdd scatter_S200000x64_S2700000x1_S2700000x64_1_0_0_1 (broadcastInDim S200000x64 ![] bcast_S_S200000x64 (constant S_ .f32 0x00000000#32)) (idxOut i12) (shapeCast _ y shapeCasts_S27x100000x64_S2700000x64)

/-- The first sparse convolution. -/
def conv1 (x0 : FVec Ideal S200000x64 .f32) (a1 : FVec Ideal S27x64x64 .f32) (i11 i12 : IVec S27x100000 32) : FVec Ideal S200000x64 .f32 :=
  scatterRows i12 (gemm (Host.gather gather_S200000x64_S27x100000x1_S27x100000x64_2_0_n_n_0_2_164 x0 (idxIn i11)) a1)

/-- The second sparse convolution, of the normalised and rectified h. -/
def conv2 (h : FVec Ideal S200000x64 .f32) (a2 : FVec Ideal S27x64x64 .f32) (γ β μ v : FVec Ideal S64 .f32) (i11 i12 : IVec S27x100000 32) : FVec Ideal S200000x64 .f32 :=
  scatterRows i12 (gemmBn γ β μ v (Host.gather gather_S200000x64_S27x100000x1_S27x100000x64_2_0_n_n_0_2_164 h (idxIn i11)) a2)

/-- The second batch norm, the residual sum and the last rectifier. -/
def tail (y x0 : FVec Ideal S200000x64 .f32) (γ β μ v : FVec Ideal S64 .f32) : FVec Ideal S200000x64 .f32 :=
  maximumf (addf (addf (mulf (mulf (subf y (broadcastInDim S200000x64 ![0, 1] bcast_S1x64_S200000x64_0_1 (broadcastInDim S1x64 ![1] bcast_S64_S1x64_1 μ))) (broadcastInDim S200000x64 ![0, 1] bcast_S1x64_S200000x64_0_1 (broadcastInDim S1x64 ![1] bcast_S64_S1x64_1 (Host.rsqrt (addf v (broadcastInDim S64 ![] bcast_S_S64 (constant S_ .f32 0x3727C5AC#32))))))) (broadcastInDim S200000x64 ![0, 1] bcast_S1x64_S200000x64_0_1 (broadcastInDim S1x64 ![1] bcast_S64_S1x64_1 γ))) (broadcastInDim S200000x64 ![0, 1] bcast_S1x64_S200000x64_0_1 (broadcastInDim S1x64 ![1] bcast_S64_S1x64_1 β))) x0) (broadcastInDim S200000x64 ![] bcast_S_S200000x64 (constant S_ .f32 0x00000000#32))

/-- The whole block: conv1, batch norm, rectifier, conv2, batch norm, residual, rectifier. -/
def out (x0 : FVec Ideal S200000x64 .f32) (a1 a2 : FVec Ideal S27x64x64 .f32) (γ1 β1 μ1 v1 γ2 β2 μ2 v2 : FVec Ideal S64 .f32)
    (i11 i12 : IVec S27x100000 32) : FVec Ideal S200000x64 .f32 :=
  tail (conv2 (conv1 x0 a1 i11 i12) a2 γ1 β1 μ1 v1 i11 i12) x0 γ2 β2 μ2 v2

end Cert.Mid

end
-- ==== Proof.Fold.lean ====
/-
  The argument arrays through the boundaries of the kernel program: no host operation and no kernel region writes
  an argument's buffer, so at every boundary between stretches and regions an argument's buffer still holds what it
  was launched with.
-/
import proofs.«160069_j68350109548654_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_arg0 m ρ c
theorem W4_arg0 (c : Dev nD) : W4 m ρ c (Proc.devRef .tc main_arg0) = m ((c : Thread nD τ).loc main_arg0) :=
  (W4_of_ne m ρ c main_arg0 (by decide)).trans (W3_arg0 m ρ c)

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_arg1 m ρ c
theorem W4_arg1 (c : Dev nD) : W4 m ρ c (Proc.devRef .tc main_arg1) = m ((c : Thread nD τ).loc main_arg1) :=
  (W4_of_ne m ρ c main_arg1 (by decide)).trans (W3_arg1 m ρ c)

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_arg2 m ρ c
theorem W4_arg2 (c : Dev nD) : W4 m ρ c (Proc.devRef .tc main_arg2) = m ((c : Thread nD τ).loc main_arg2) :=
  ((W4_arr m ρ c 1).trans (((dat1 (V3 m ρ) c).arrAt_in 1 rfl _).trans (A_eq1 (V3 m ρ) c 1))).trans (W3_arg2 m ρ c)

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_arg3 m ρ c
theorem W4_arg3 (c : Dev nD) : W4 m ρ c (Proc.devRef .tc main_arg3) = m ((c : Thread nD τ).loc main_arg3) :=
  (W4_of_ne m ρ c main_arg3 (by decide)).trans (W3_arg3 m ρ c)

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_arg4 m ρ c
theorem W4_arg4 (c : Dev nD) : W4 m ρ c (Proc.devRef .tc main_arg4) = m ((c : Thread nD τ).loc main_arg4) :=
  (W4_of_ne m ρ c main_arg4 (by decide)).trans (W3_arg4 m ρ c)

theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W2_arg5 m ρ c
theorem W4_arg5 (c : Dev nD) : W4 m ρ c (Proc.devRef .tc main_arg5) = m ((c : Thread nD τ).loc main_arg5) :=
  (W4_of_ne m ρ c main_arg5 (by decide)).trans (W3_arg5 m ρ c)

theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_arg6 m ρ c
theorem W4_arg6 (c : Dev nD) : W4 m ρ c (Proc.devRef .tc main_arg6) = m ((c : Thread nD τ).loc main_arg6) :=
  (W4_of_ne m ρ c main_arg6 (by decide)).trans (W3_arg6 m ρ c)

theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_arg7 m ρ c
theorem W4_arg7 (c : Dev nD) : W4 m ρ c (Proc.devRef .tc main_arg7) = m ((c : Thread nD τ).loc main_arg7) :=
  (W4_of_ne m ρ c main_arg7 (by decide)).trans (W3_arg7 m ρ c)

theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_arg8 m ρ c
theorem W4_arg8 (c : Dev nD) : W4 m ρ c (Proc.devRef .tc main_arg8) = m ((c : Thread nD τ).loc main_arg8) :=
  (W4_of_ne m ρ c main_arg8 (by decide)).trans (W3_arg8 m ρ c)

theorem W1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_arg9 m ρ c
theorem W4_arg9 (c : Dev nD) : W4 m ρ c (Proc.devRef .tc main_arg9) = m ((c : Thread nD τ).loc main_arg9) :=
  (W4_of_ne m ρ c main_arg9 (by decide)).trans (W3_arg9 m ρ c)

theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_arg10 m ρ c
theorem W4_arg10 (c : Dev nD) : W4 m ρ c (Proc.devRef .tc main_arg10) = m ((c : Thread nD τ).loc main_arg10) :=
  (W4_of_ne m ρ c main_arg10 (by decide)).trans (W3_arg10 m ρ c)

theorem W1_arg11 (c : Dev nD) : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W2_arg11 m ρ c
theorem W4_arg11 (c : Dev nD) : W4 m ρ c (Proc.devRef .tc main_arg11) = m ((c : Thread nD τ).loc main_arg11) :=
  (W4_of_ne m ρ c main_arg11 (by decide)).trans (W3_arg11 m ρ c)

theorem W1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W2_arg12 m ρ c
theorem W4_arg12 (c : Dev nD) : W4 m ρ c (Proc.devRef .tc main_arg12) = m ((c : Thread nD τ).loc main_arg12) :=
  (W4_of_ne m ρ c main_arg12 (by decide)).trans (W3_arg12 m ρ c)

end Cert.KernelIdeal.Fold

end
-- ==== Proof.Stages.lean ====
/-
  The four stretches of host operations of the kernel program, each read as a function of the buffers it finds
  (any contents W): the row gathers, the scatter-adds, the reshapes of the parameters and the lane-dense repacking.
  The results are stated over the common forms of Mid.lean; a change of float format is the identity on the
  extended reals.
-/
import proofs.«160069_j68350109548654_2_alg».proof.Proof.Gen.KernelIdeal.Frame
import proofs.«160069_j68350109548654_2_alg».proof.Proof.Mid
import Idealize.ShloMosaic.Lib.StableHlo.Run
import Idealize.ShloMosaic.Lib.ValueIdx
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (W : Valuation τ sig (Elt Ideal))

/-- Before the first region: the rows of the input the input map names. -/
theorem st0_v7 (x0 : FVec Ideal S200000x64 .f32) (i11 : IVec S27x100000 32)
    (h0 : W (Proc.devRef .tc main_arg0) = x0) (h11 : W (Proc.devRef .tc main_arg11) = i11) :
    StableHlo.after (hostOps0 (F := Ideal)) W (Proc.devRef .tc main_v7)
      = Host.gather Cert.ReferenceIdeal.gather_S200000x64_S27x100000x1_S27x100000x64_2_0_n_n_0_2_164 x0 (Cert.Mid.idxIn i11) := by
  subst h0; subst h11
  after_results
  rfl

/-- A narrowing of the float format is the identity on the extended reals. -/
theorem truncf_id {s : Shape} (x : FVec Ideal s .f32) : (truncf .bf16 x bitsLt_bf16_f32 : FVec Ideal s .bf16) = x := rfl

set_option maxHeartbeats 4000000 in
/-- Between the first two regions, at any float instance: the rows (narrowed) of the scatter-add of the first
    region's array that the input map names. -/
theorem st1_v26_any {F : FTy → Type} [FloatOps F] (W : Valuation τ sig (Elt F))
    (y1 : FVec F S27x100000x64 .f32) (i11 i12 : IVec S27x100000 32)
    (hy : W (Proc.devRef .tc main_v8) = y1) (h11 : W (Proc.devRef .tc main_arg11) = i11) (h12 : W (Proc.devRef .tc main_arg12) = i12) :
    StableHlo.after (hostOps1 (F := F)) W (Proc.devRef .tc main_v26)
      = Host.gather Cert.ReferenceIdeal.gather_S200000x64_S27x100000x1_S27x100000x64_2_0_n_n_0_2_164 (truncf .bf16 (Cert.Mid.scatterRows i12 y1) bitsLt_bf16_f32) (Cert.Mid.idxIn i11) := by
  subst hy; subst h11; subst h12
  after_results
  rfl

/-- The same on the extended reals, where the narrowing disappears. -/
theorem st1_v26 (y1 : FVec Ideal S27x100000x64 .f32) (i11 i12 : IVec S27x100000 32)
    (hy : W (Proc.devRef .tc main_v8) = y1) (h11 : W (Proc.devRef .tc main_arg11) = i11) (h12 : W (Proc.devRef .tc main_arg12) = i12) :
    StableHlo.after (hostOps1 (F := Ideal)) W (Proc.devRef .tc main_v26)
      = Host.gather Cert.ReferenceIdeal.gather_S200000x64_S27x100000x1_S27x100000x64_2_0_n_n_0_2_164 (Cert.Mid.scatterRows i12 y1) (Cert.Mid.idxIn i11) :=
  (st1_v26_any W y1 i11 i12 hy h11 h12).trans
    (congrArg (fun x : Cert.Spec.SX.Idx → EReal => Host.gather Cert.ReferenceIdeal.gather_S200000x64_S27x100000x1_S27x100000x64_2_0_n_n_0_2_164 x (Cert.Mid.idxIn i11)) (truncf_id (Cert.Mid.scatterRows i12 y1)))

/-- Between the first two regions: parameter row γ, read as a vector over the channels, is the argument. -/
theorem st1_main_v27 (p : FVec Ideal S64 .f32) (hp : W (Proc.devRef .tc main_arg3) = p) :
    Cert.Spec.row (StableHlo.after (hostOps1 (F := Ideal)) W (Proc.devRef .tc main_v27) : Cert.Spec.SR.Idx → EReal) = p := by
  subst hp
  have e : (StableHlo.after (hostOps1 (F := Ideal)) W (Proc.devRef .tc main_v27) : Cert.Spec.SR.Idx → EReal)
      = shapeCast S1x64 (W (Proc.devRef .tc main_arg3) : S64.Idx → EReal) shapeCasts_S64_S1x64 := by
    after_results
    rfl
  rw [e]
  funext a
  unfold Cert.Spec.row
  refine (shapeCast_a_1a_apply _ _ _ _).trans ?_
  exact congrArg _ (eq_ix1 a).symm

/-- Between the first two regions: parameter row β, read as a vector over the channels, is the argument. -/
theorem st1_main_v28 (p : FVec Ideal S64 .f32) (hp : W (Proc.devRef .tc main_arg4) = p) :
    Cert.Spec.row (StableHlo.after (hostOps1 (F := Ideal)) W (Proc.devRef .tc main_v28) : Cert.Spec.SR.Idx → EReal) = p := by
  subst hp
  have e : (StableHlo.after (hostOps1 (F := Ideal)) W (Proc.devRef .tc main_v28) : Cert.Spec.SR.Idx → EReal)
      = shapeCast S1x64 (W (Proc.devRef .tc main_arg4) : S64.Idx → EReal) shapeCasts_S64_S1x64 := by
    after_results
    rfl
  rw [e]
  funext a
  unfold Cert.Spec.row
  refine (shapeCast_a_1a_apply _ _ _ _).trans ?_
  exact congrArg _ (eq_ix1 a).symm

/-- Between the first two regions: parameter row μ, read as a vector over the channels, is the argument. -/
theorem st1_main_v29 (p : FVec Ideal S64 .f32) (hp : W (Proc.devRef .tc main_arg5) = p) :
    Cert.Spec.row (StableHlo.after (hostOps1 (F := Ideal)) W (Proc.devRef .tc main_v29) : Cert.Spec.SR.Idx → EReal) = p := by
  subst hp
  have e : (StableHlo.after (hostOps1 (F := Ideal)) W (Proc.devRef .tc main_v29) : Cert.Spec.SR.Idx → EReal)
      = shapeCast S1x64 (W (Proc.devRef .tc main_arg5) : S64.Idx → EReal) shapeCasts_S64_S1x64 := by
    after_results
    rfl
  rw [e]
  funext a
  unfold Cert.Spec.row
  refine (shapeCast_a_1a_apply _ _ _ _).trans ?_
  exact congrArg _ (eq_ix1 a).symm

/-- Between the first two regions: parameter row v, read as a vector over the channels, is the argument. -/
theorem st1_main_v30 (p : FVec Ideal S64 .f32) (hp : W (Proc.devRef .tc main_arg6) = p) :
    Cert.Spec.row (StableHlo.after (hostOps1 (F := Ideal)) W (Proc.devRef .tc main_v30) : Cert.Spec.SR.Idx → EReal) = p := by
  subst hp
  have e : (StableHlo.after (hostOps1 (F := Ideal)) W (Proc.devRef .tc main_v30) : Cert.Spec.SR.Idx → EReal)
      = shapeCast S1x64 (W (Proc.devRef .tc main_arg6) : S64.Idx → EReal) shapeCasts_S64_S1x64 := by
    after_results
    rfl
  rw [e]
  funext a
  unfold Cert.Spec.row
  refine (shapeCast_a_1a_apply _ _ _ _).trans ?_
  exact congrArg _ (eq_ix1 a).symm

set_option maxHeartbeats 4000000 in
/-- Between the last two regions, at any float instance: the scatter-add of the second region's array, repacked
    two rows to a lane-dense row. -/
theorem st2_v42_any {F : FTy → Type} [FloatOps F] (W : Valuation τ sig (Elt F))
    (y2 : FVec F S27x100000x64 .f32) (i12 : IVec S27x100000 32)
    (hy : W (Proc.devRef .tc main_v31) = y2) (h12 : W (Proc.devRef .tc main_arg12) = i12) :
    StableHlo.after (hostOps2 (F := F)) W (Proc.devRef .tc main_v42)
      = shapeCast S100000x128 (Cert.Mid.scatterRows i12 y2) shapeCasts_S200000x64_S100000x128 := by
  subst hy; subst h12
  after_results
  rfl

theorem st2_v42 (y2 : FVec Ideal S27x100000x64 .f32) (i12 : IVec S27x100000 32)
    (hy : W (Proc.devRef .tc main_v31) = y2) (h12 : W (Proc.devRef .tc main_arg12) = i12) :
    StableHlo.after (hostOps2 (F := Ideal)) W (Proc.devRef .tc main_v42)
      = shapeCast S100000x128 (Cert.Mid.scatterRows i12 y2) shapeCasts_S200000x64_S100000x128 :=
  st2_v42_any W y2 i12 hy h12

/-- The residual input repacked the same way. -/
theorem st2_v43 (x0 : FVec Ideal S200000x64 .f32) (h0 : W (Proc.devRef .tc main_arg0) = x0) :
    StableHlo.after (hostOps2 (F := Ideal)) W (Proc.devRef .tc main_v43)
      = shapeCast S100000x128 x0 shapeCasts_S200000x64_S100000x128 := by
  subst h0
  after_results
  rfl

/-- The second batch norm's parameters tiled twice along the lanes. -/
theorem st2_main_v47 (p : FVec Ideal S64 .f32) (hp : W (Proc.devRef .tc main_arg7) = p) :
    StableHlo.after (hostOps2 (F := Ideal)) W (Proc.devRef .tc main_v47)
      = shapeCast S1x128 (shapeCast S128 (broadcastInDim S2x64 ![0, 1] bcast_S1x64_S2x64_0_1 (shapeCast S1x64 p shapeCasts_S64_S1x64)) shapeCasts_S2x64_S128) shapeCasts_S128_S1x128 := by
  subst hp
  after_results
  rfl

theorem st2_main_v51 (p : FVec Ideal S64 .f32) (hp : W (Proc.devRef .tc main_arg8) = p) :
    StableHlo.after (hostOps2 (F := Ideal)) W (Proc.devRef .tc main_v51)
      = shapeCast S1x128 (shapeCast S128 (broadcastInDim S2x64 ![0, 1] bcast_S1x64_S2x64_0_1 (shapeCast S1x64 p shapeCasts_S64_S1x64)) shapeCasts_S2x64_S128) shapeCasts_S128_S1x128 := by
  subst hp
  after_results
  rfl

theorem st2_main_v55 (p : FVec Ideal S64 .f32) (hp : W (Proc.devRef .tc main_arg9) = p) :
    StableHlo.after (hostOps2 (F := Ideal)) W (Proc.devRef .tc main_v55)
      = shapeCast S1x128 (shapeCast S128 (broadcastInDim S2x64 ![0, 1] bcast_S1x64_S2x64_0_1 (shapeCast S1x64 p shapeCasts_S64_S1x64)) shapeCasts_S2x64_S128) shapeCasts_S128_S1x128 := by
  subst hp
  after_results
  rfl

theorem st2_main_v59 (p : FVec Ideal S64 .f32) (hp : W (Proc.devRef .tc main_arg10) = p) :
    StableHlo.after (hostOps2 (F := Ideal)) W (Proc.devRef .tc main_v59)
      = shapeCast S1x128 (shapeCast S128 (broadcastInDim S2x64 ![0, 1] bcast_S1x64_S2x64_0_1 (shapeCast S1x64 p shapeCasts_S64_S1x64)) shapeCasts_S2x64_S128) shapeCasts_S128_S1x128 := by
  subst hp
  after_results
  rfl

/-- After the last region: the lane-dense result unpacked. -/
theorem st3_v61 (z : FVec Ideal S100000x128 .f32) (hz : W (Proc.devRef .tc main_v60) = z) :
    StableHlo.after (hostOps3 (F := Ideal)) W (Proc.devRef .tc main_v61)
      = shapeCast S200000x64 z shapeCasts_S100000x128_S200000x64 := by
  subst hz
  after_results
  rfl

end Cert.KernelIdeal.Stages

end
-- ==== Proof.Reg0.lean ====
/-
  The first kernel region: each grid point (k, b) multiplies a block of 20000 gathered rows of offset k by that
  offset's 64×64 weight matrix.  The region's output array, composed from the 27 × 5 blocks written back, is the
  per-offset matrix product of the whole gathered array with the weights.
-/
import proofs.«160069_j68350109548654_2_alg».proof.Proof.Gen.KernelIdeal.Frame
import proofs.«160069_j68350109548654_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem lhs0_0 (i : S20000x64.Idx) (q : dot_S20000x64_S64x64_S20000x64_1_0_0_1_n_n.contr.Idx) : (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem lhs0_1 (i : S20000x64.Idx) (q : dot_S20000x64_S64x64_S20000x64_1_0_0_1_n_n.contr.Idx) : (dot_S20000x64_S64x64_S20000x64_1_0_0_1_n_n.lhsIdx i q 1).val = (q ⟨0, by decide⟩).val :=
  dot_S20000x64_S64x64_S20000x64_1_0_0_1_n_n.lhsIdx_val_of_single rfl i q
theorem rhs0_0 (i : S20000x64.Idx) (q : dot_S20000x64_S64x64_S20000x64_1_0_0_1_n_n.contr.Idx) : (dot_S20000x64_S64x64_S20000x64_1_0_0_1_n_n.rhsIdx i q 0).val = (q ⟨0, by decide⟩).val :=
  dot_S20000x64_S64x64_S20000x64_1_0_0_1_n_n.rhsIdx_val_of_single rfl i q
theorem rhs0_1 (i : S20000x64.Idx) (q : dot_S20000x64_S64x64_S20000x64_1_0_0_1_n_n.contr.Idx) : (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- One block's product at row p, output channel d: the sum over the input channel. -/
theorem pay0_apply (x0 : Vec Ideal S1x20000x64 .bf16) (x1 : Vec Ideal S1x64x64 .f32) (p : Fin 20000) (d : Fin 64) :
    k0_pay1 x0 x1 (ix3 (0 : Fin 1) p d) = ∑ k : Fin 64, x0 (ix3 (0 : Fin 1) p k) * x1 (ix3 (0 : Fin 1) k d) := by
  unfold k0_pay1
  refine (shapeCast_ab_1ab_apply _ _ (0 : Fin 1) p d).trans ?_
  refine (Ideal.matmul_constant_zero_apply dot_S20000x64_S64x64_S20000x64_1_0_0_1_n_n none _ _ (ix2 p d)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 p d) ((contrEquiv1 dot_S20000x64_S64x64_S20000x64_1_0_0_1_n_n 64 rfl rfl).symm k) = ix2 p k :=
    funext fun a => Fin.ext (by
      match a with
      | ⟨0, _⟩ => exact lhs0_0 _ _
      | ⟨1, _⟩ => exact (lhs0_1 _ _).trans hk)
  have er : dot_S20000x64_S64x64_S20000x64_1_0_0_1_n_n.rhsIdx (ix2 p d) ((contrEquiv1 dot_S20000x64_S64x64_S20000x64_1_0_0_1_n_n 64 rfl rfl).symm k) = ix2 k d :=
    funext fun a => Fin.ext (by
      match a with
      | ⟨0, _⟩ => exact (rhs0_0 _ _).trans hk
      | ⟨1, _⟩ => exact rhs0_1 _ _)
  rw [el, er]
  rw [shapeCast_1ab_ab_apply, truncf_apply, shapeCast_1ab_ab_apply]

/-- The same at any index of the block. -/
theorem pay0_at (x0 : Vec Ideal S1x20000x64 .bf16) (x1 : Vec Ideal S1x64x64 .f32) (y : S1x20000x64.Idx) :
    k0_pay1 x0 x1 y = ∑ k : Fin 64, x0 (ix3 (0 : Fin 1) (y 1) k) * x1 (ix3 (0 : Fin 1) k (y 2)) := by
  have hy : y = ix3 (0 : Fin 1) (y 1) (y 2) := by
    have h0 : (y 0 : Fin 1) = (0 : Fin 1) := Subsingleton.elim (α := Fin 1) _ _
    exact (eq_ix3 y).trans (congrArg (fun u : Fin 1 => ix3 u (y 1) (y 2)) h0)
  rw [hy]
  exact pay0_apply x0 x1 (y 1) (y 2)

section Blocks

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the grid: the gathered rows' block moves with the output's block, the
    weights' block is the offset's whole matrix, and the output's block indices stay in their ranges. -/
theorem idx_facts0 : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 26 ∧ win0_2.index t (1 : Fin 3) ≤ 4 :=
  (by decide +kernel : ∀ t : Fin grid0.N, _)

/-- Every (offset, row block) pair is some grid point's. -/
theorem idx_onto0 : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

/-- What grid point t writes back is block t of the whole product. -/
theorem flushed_eq0 (c : Dev nD) (t : Fin cfg0.N) :
    (dat0 V c).flushed 2 t = ((cfg0.win 2).blk t).view.read (Elt Ideal) (gemm (V c main_v7) (V c main_arg1)) := by
  show (cfg0.win 2).cut (grid0.coords t) ((dat0 V c).after 2 t) = _
  rw [after0_2]
  unfold out0_2
  rw [View.canon_unit_zero hz3]
  simp only [View.ld_unit_zero (S := S1x20000x64) hz3, View.ld_unit_zero (S := S1x64x64) hz3]
  obtain ⟨e0, e1, e2, e3, e4, e5, e6, e7, e8⟩ := idx_facts0 t
  funext j
  show k0_pay1 (iblk0 V c 0 t) (iblk0 V c 1 t) j = gemm (V c main_v7) (V c main_arg1) (((cfg0.win 2).blk t).view.emb j)
  refine (pay0_at (iblk0 V c 0 t) (iblk0 V c 1 t) j).trans ?_
  unfold gemm
  refine Finset.sum_congr rfl fun k _ => ?_
  have hj0 : (j 0).val < 1 := (j 0).isLt
  have hj1 : (j 1).val < 20000 := (j 1).isLt
  have hj2 : (j 2).val < 64 := (j 2).isLt
  have h0 : ((cfg0.win 0).blk t).view.emb (ix3 (0 : Fin 1) (j 1) k)
      = ix3 ((((cfg0.win 2).blk t).view.emb j) 0) ((((cfg0.win 2).blk t).view.emb j) 1) k := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 20000 + 1 * (j 1).val = win0_2.index t (1 : Fin 3) * 20000 + 1 * (j 1).val; omega
    | ⟨2, _⟩ => show win0_0.index t (2 : Fin 3) * 64 + 1 * k.val = k.val; omega
  have h1 : ((cfg0.win 1).blk t).view.emb (ix3 (0 : Fin 1) k (j 2))
      = ix3 ((((cfg0.win 2).blk t).view.emb j) 0) k ((((cfg0.win 2).blk t).view.emb j) 2) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 64 + 1 * (j 2).val = win0_2.index t (2 : Fin 3) * 64 + 1 * (j 2).val; omega
  exact congrArg₂ (fun a b : EReal => a * b)
    (congrArg (fun i : SG.Idx => (V c main_v7 : SG.Idx → EReal) i) h0)
    (congrArg (fun i : SW.Idx => (V c main_arg1 : SW.Idx → EReal) i) h1)

/-- An index of the output array is in point t's block iff each coordinate is in the block's range on its axis. -/
theorem mem_blk0 (t : Fin cfg0.N) (i : S27x100000x64.Idx) :
    i ∈ ((cfg0.win 2).blk t).view.set ↔ ∀ a : Fin 3, win0_2.index t a * S1x20000x64.size a ≤ (i a).val ∧ (i a).val < win0_2.index t a * S1x20000x64.size a + S1x20000x64.size a := by
  show i ∈ ((View.whole main_v8).slice (win0_2.rect t)).set ↔ _
  rw [View.set_slice_whole, Rect.mem_set_unit]
  exact Iff.rfl

/-- Every index of the output array is in some grid point's block: offset k, row block m / 20000. -/
theorem cover0 (i : S27x100000x64.Idx) :
    ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  obtain ⟨t, ht⟩ := idx_onto0 ⟨(i 0).val, hi0⟩ ⟨(i 1).val / 20000, by omega⟩
  have q0 : win0_2.index t (0 : Fin 3) = (i 0).val := congrFun ht 0
  have q1 : win0_2.index t (1 : Fin 3) = (i 1).val / 20000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

/-- The region's output array after its grid: the per-offset product of the gathered array (as the region finds it)
    with the first convolution's weights. -/
theorem final0 (c : Dev nD) :
    (dat0 V c).arrAt 2 cfg0.N = gemm (V c main_v7) (V c main_arg1) :=
  (dat0 V c).arrAt_eq_of_cover 2 (gemm (V c main_v7) (V c main_arg1)) (fun t _ => flushed_eq0 V c t) cover0

end Blocks

end Cert.KernelIdeal.Reg0

end
-- ==== Proof.Reg1.lean ====
/-
  The second kernel region: each grid point (k, b) takes a block of 10000 gathered rows of offset k, applies the
  first batch norm and the rectifier to each entry with its channel's parameters, and multiplies by that offset's
  64×64 weight matrix.  The region's output array, composed from the 27 × 10 blocks written back, is the
  per-offset product of the normalised, rectified gathered array with the weights.
-/
import proofs.«160069_j68350109548654_2_alg».proof.Proof.Gen.KernelIdeal.Frame
import proofs.«160069_j68350109548654_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem lhs1_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs1_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs1_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs1_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- One block's product at row p, output channel d: the sum over the input channel of the normalised, rectified
    entry times the weight. -/
theorem pay1_apply (x0 : Vec Ideal S1x10000x64 .bf16) (mu va ga be : Vec Ideal S1x64 .f32) (x1 : Vec Ideal S1x64x64 .f32)
    (p : Fin 10000) (d : Fin 64) :
    k1_pay1 x0 mu va ga be x1 (ix3 (0 : Fin 1) p d)
      = ∑ k : Fin 64, bnReluAt (row ga) (row be) (row mu) (row va) (x0 (ix3 (0 : Fin 1) p k)) k * x1 (ix3 (0 : Fin 1) k d) := by
  unfold k1_pay1
  refine (shapeCast_ab_1ab_apply _ _ (0 : Fin 1) p d).trans ?_
  refine (Ideal.matmul_constant_zero_apply dot_S10000x64_S64x64_S10000x64_1_0_0_1_n_n none _ _ (ix2 p d)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p d) ((contrEquiv1 dot_S10000x64_S64x64_S10000x64_1_0_0_1_n_n 64 rfl rfl).symm k) = ix2 p k :=
    funext fun a => Fin.ext (by
      match a with
      | ⟨0, _⟩ => exact lhs1_0 _ _
      | ⟨1, _⟩ => exact (lhs1_1 _ _).trans hk)
  have er : dot_S10000x64_S64x64_S10000x64_1_0_0_1_n_n.rhsIdx (ix2 p d) ((contrEquiv1 dot_S10000x64_S64x64_S10000x64_1_0_0_1_n_n 64 rfl rfl).symm k) = ix2 k d :=
    funext fun a => Fin.ext (by
      match a with
      | ⟨0, _⟩ => exact (rhs1_0 _ _).trans hk
      | ⟨1, _⟩ => exact rhs1_1 _ _)
  rw [el, er]
  rw [truncf_apply, truncf_apply, shapeCast_1ab_ab_apply]
  simp only [maximumf_apply, addf_apply, mulf_apply, subf_apply, extf_apply, broadcast_apply, shapeCast_self,
    broadcastTo_1b_ab_apply, shapeCast_1ab_ab_apply]
  rfl

/-- The same at any index of the block, with the four parameter rows read through any vectors γ β μ v over the 64
    channels that agree with them entry by entry. -/
theorem pay1_at (x0 : Vec Ideal S1x10000x64 .bf16) (mu va ga be : Vec Ideal S1x64 .f32) (x1 : Vec Ideal S1x64x64 .f32)
    (γ β μ v : SC.Idx → EReal)
    (hg : ∀ k : Fin 64, ga (ix2 (0 : Fin 1) k) = γ (ix1 k)) (hb : ∀ k : Fin 64, be (ix2 (0 : Fin 1) k) = β (ix1 k))
    (hm : ∀ k : Fin 64, mu (ix2 (0 : Fin 1) k) = μ (ix1 k)) (hv : ∀ k : Fin 64, va (ix2 (0 : Fin 1) k) = v (ix1 k))
    (y : S1x10000x64.Idx) :
    k1_pay1 x0 mu va ga be x1 y
      = ∑ k : Fin 64, bnReluAt γ β μ v (x0 (ix3 (0 : Fin 1) (y 1) k)) k * x1 (ix3 (0 : Fin 1) k (y 2)) := by
  have hy : y = ix3 (0 : Fin 1) (y 1) (y 2) := by
    have h0 : (y 0 : Fin 1) = (0 : Fin 1) := Subsingleton.elim (α := Fin 1) _ _
    exact (eq_ix3 y).trans (congrArg (fun u : Fin 1 => ix3 u (y 1) (y 2)) h0)
  rw [hy]
  refine (pay1_apply x0 mu va ga be x1 (y 1) (y 2)).trans ?_
  refine Finset.sum_congr rfl fun k _ => ?_
  unfold bnReluAt row
  rw [← hg k, ← hb k, ← hm k, ← hv k]

section Blocks

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the gathered rows' block moves with the output's block, the
    weights' block is the offset's whole matrix, each parameter row is fetched whole, and the output's block
    indices stay in their ranges. -/
theorem idx_facts1 : ∀ t : Fin cfg1.N,
    win1_0.index t (0 : Fin 3) = win1_6.index t (0 : Fin 3)
    ∧ win1_0.index t (1 : Fin 3) = win1_6.index t (1 : Fin 3)
    ∧ win1_0.index t (2 : Fin 3) = 0
    ∧ win1_1.index t (0 : Fin 3) = win1_6.index t (0 : Fin 3)
    ∧ win1_1.index t (1 : Fin 3) = 0
    ∧ win1_1.index t (2 : Fin 3) = 0
    ∧ win1_6.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) ≤ 26 ∧ win1_6.index t (1 : Fin 3) ≤ 9 :=
  (by decide +kernel : ∀ t : Fin grid1.N, _)

/-- Every (offset, row block) pair is some grid point's. -/
theorem idx_onto1 : ∀ (q0 : Fin 27) (q1 : Fin 10), ∃ t : Fin cfg1.N, win1_6.index t = ![q0.val, q1.val, 0] :=
  (by decide +kernel : ∀ (q0 : Fin 27) (q1 : Fin 10), ∃ t : Fin grid1.N, win1_6.index t = ![q0.val, q1.val, 0])

/-- A parameter row's block is the whole row. -/
theorem par2 (c : Dev nD) (t : Fin cfg1.N) (k : Fin 64) :
    iblk1 V c 2 t (ix2 (0 : Fin 1) k) = row (V c main_v27 : SR.Idx → EReal) (ix1 k) := by
  obtain ⟨e0, e1, e2, e3, e4, e5, e6, f20, f21, f30, f31, f40, f41, f50, f51, e7, e8⟩ := idx_facts1 t
  have hk : k.val < 64 := k.isLt
  have h : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 64 + 1 * k.val = k.val; omega
  exact congrArg (fun i : SR.Idx => (V c main_v27 : SR.Idx → EReal) i) h

theorem par3 (c : Dev nD) (t : Fin cfg1.N) (k : Fin 64) :
    iblk1 V c 3 t (ix2 (0 : Fin 1) k) = row (V c main_v28 : SR.Idx → EReal) (ix1 k) := by
  obtain ⟨e0, e1, e2, e3, e4, e5, e6, f20, f21, f30, f31, f40, f41, f50, f51, e7, e8⟩ := idx_facts1 t
  have hk : k.val < 64 := k.isLt
  have h : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 64 + 1 * k.val = k.val; omega
  exact congrArg (fun i : SR.Idx => (V c main_v28 : SR.Idx → EReal) i) h

theorem par4 (c : Dev nD) (t : Fin cfg1.N) (k : Fin 64) :
    iblk1 V c 4 t (ix2 (0 : Fin 1) k) = row (V c main_v29 : SR.Idx → EReal) (ix1 k) := by
  obtain ⟨e0, e1, e2, e3, e4, e5, e6, f20, f21, f30, f31, f40, f41, f50, f51, e7, e8⟩ := idx_facts1 t
  have hk : k.val < 64 := k.isLt
  have h : ((cfg1.win 4).blk t).view.emb (ix2 (0 : Fin 1) k) = ix2 (0 : Fin 1) k := by
    funext a; apply Fin.ext
    match a with
    | ⟨0, _⟩ => show win1_4.index t (0 : Fin 2) * 1 + 1 * 0 = 0; omega
    | ⟨1, _⟩ => show win1_4.index t (1 : Fin 2) * 64 + 1 * k.val = k.val; omega
  exact congrArg (fun i : SR.Idx => (V c main_v29 : SR.Idx → EReal) i) h

theorem par5 (c : Dev nD) (t : Fin cfg1.N) (k : Fin 64) :
    iblk1 V c 5 t (ix2 (0 : Fin 1) k) = row (V c main_v30 : SR.Idx → EReal) (ix1 k) := by
  obtain ⟨e0, e1, e2, e3, e4, e5, e6, f20, f21, f30, f31, f40, f41, f50, f51, e7, e8⟩ := idx_facts1 t
  have hk : k.val < 64 := k.isLt
  have h : ((cfg1.win 5).blk t).view.emb (ix2 (0 : Fin 1) k) = ix2 (0 : Fin 1) k := by
    funext a; apply Fin.ext
    match a with
    | ⟨0, _⟩ => show win1_5.index t (0 : Fin 2) * 1 + 1 * 0 = 0; omega
    | ⟨1, _⟩ => show win1_5.index t (1 : Fin 2) * 64 + 1 * k.val = k.val; omega
  exact congrArg (fun i : SR.Idx => (V c main_v30 : SR.Idx → EReal) i) h

/-- What grid point t writes back is block t of the whole product. -/
theorem flushed_eq1 (c : Dev nD) (t : Fin cfg1.N) :
    (dat1 V c).flushed 6 t = ((cfg1.win 6).blk t).view.read (Elt Ideal)
      (gemmBn (row (V c main_v27 : SR.Idx → EReal)) (row (V c main_v28 : SR.Idx → EReal)) (row (V c main_v29 : SR.Idx → EReal))
        (row (V c main_v30 : SR.Idx → EReal)) (V c main_v26) (V c main_arg2)) := by
  show (cfg1.win 6).cut (grid1.coords t) ((dat1 V c).after 6 t) = _
  rw [after1_6]
  unfold out1_6
  rw [View.canon_unit_zero hz3]
  simp only [View.ld_unit_zero (S := S1x10000x64) hz3, View.ld_unit_zero (S := S1x64x64) hz3, View.ld_unit_zero (S := S1x64) hz2]
  obtain ⟨e0, e1, e2, e3, e4, e5, e6, f20, f21, f30, f31, f40, f41, f50, f51, e7, e8⟩ := idx_facts1 t
  funext j
  show k1_pay1 (iblk1 V c 0 t) (iblk1 V c 4 t) (iblk1 V c 5 t) (iblk1 V c 2 t) (iblk1 V c 3 t) (iblk1 V c 1 t) j
    = gemmBn (row (V c main_v27 : SR.Idx → EReal)) (row (V c main_v28 : SR.Idx → EReal)) (row (V c main_v29 : SR.Idx → EReal))
        (row (V c main_v30 : SR.Idx → EReal)) (V c main_v26) (V c main_arg2) (((cfg1.win 6).blk t).view.emb j)
  refine (pay1_at (iblk1 V c 0 t) (iblk1 V c 4 t) (iblk1 V c 5 t) (iblk1 V c 2 t) (iblk1 V c 3 t) (iblk1 V c 1 t)
    (row (V c main_v27 : SR.Idx → EReal)) (row (V c main_v28 : SR.Idx → EReal)) (row (V c main_v29 : SR.Idx → EReal))
    (row (V c main_v30 : SR.Idx → EReal)) (par2 V c t) (par3 V c t) (par4 V c t) (par5 V c t) j).trans ?_
  unfold gemmBn
  refine Finset.sum_congr rfl fun k _ => ?_
  have hj0 : (j 0).val < 1 := (j 0).isLt
  have hj1 : (j 1).val < 10000 := (j 1).isLt
  have hj2 : (j 2).val < 64 := (j 2).isLt
  have h0 : ((cfg1.win 0).blk t).view.emb (ix3 (0 : Fin 1) (j 1) k)
      = ix3 ((((cfg1.win 6).blk t).view.emb j) 0) ((((cfg1.win 6).blk t).view.emb j) 1) k := by
    funext a; apply Fin.ext
    match a with
    | ⟨0, _⟩ => show win1_0.index t (0 : Fin 3) * 1 + 1 * 0 = win1_6.index t (0 : Fin 3) * 1 + 1 * (j 0).val; omega
    | ⟨1, _⟩ => show win1_0.index t (1 : Fin 3) * 10000 + 1 * (j 1).val = win1_6.index t (1 : Fin 3) * 10000 + 1 * (j 1).val; omega
    | ⟨2, _⟩ => show win1_0.index t (2 : Fin 3) * 64 + 1 * k.val = k.val; omega
  have h1 : ((cfg1.win 1).blk t).view.emb (ix3 (0 : Fin 1) k (j 2))
      = ix3 ((((cfg1.win 6).blk t).view.emb j) 0) k ((((cfg1.win 6).blk t).view.emb j) 2) := by
    funext a; apply Fin.ext
    match a with
    | ⟨0, _⟩ => show win1_1.index t (0 : Fin 3) * 1 + 1 * 0 = win1_6.index t (0 : Fin 3) * 1 + 1 * (j 0).val; omega
    | ⟨1, _⟩ => show win1_1.index t (1 : Fin 3) * 64 + 1 * k.val = k.val; omega
    | ⟨2, _⟩ => show win1_1.index t (2 : Fin 3) * 64 + 1 * (j 2).val = win1_6.index t (2 : Fin 3) * 64 + 1 * (j 2).val; omega
  exact congrArg₂ (fun a b : EReal => bnReluAt (row (V c main_v27 : SR.Idx → EReal)) (row (V c main_v28 : SR.Idx → EReal))
      (row (V c main_v29 : SR.Idx → EReal)) (row (V c main_v30 : SR.Idx → EReal)) a k * b)
    (congrArg (fun i : SG.Idx => (V c main_v26 : SG.Idx → EReal) i) h0)
    (congrArg (fun i : SW.Idx => (V c main_arg2 : SW.Idx → EReal) i) h1)

/-- An index of the output array is in point t's block iff each coordinate is in the block's range on its axis. -/
theorem mem_blk1 (t : Fin cfg1.N) (i : S27x100000x64.Idx) :
    i ∈ ((cfg1.win 6).blk t).view.set ↔ ∀ a : Fin 3, win1_6.index t a * S1x10000x64.size a ≤ (i a).val ∧ (i a).val < win1_6.index t a * S1x10000x64.size a + S1x10000x64.size a := by
  show i ∈ ((View.whole main_v31).slice (win1_6.rect t)).set ↔ _
  rw [View.set_slice_whole, Rect.mem_set_unit]
  exact Iff.rfl

/-- Every index of the output array is in some grid point's block: offset k, row block m / 10000. -/
theorem cover1 (i : S27x100000x64.Idx) :
    ∃ t : Fin cfg1.N, (cfg1.win 6).flush t = true ∧ i ∈ ((cfg1.win 6).blk t).view.set := by
  have hi0 : (i 0).val < 27 := (i 0).isLt
  have hi1 : (i 1).val < 100000 := (i 1).isLt
  have hi2 : (i 2).val < 64 := (i 2).isLt
  obtain ⟨t, ht⟩ := idx_onto1 ⟨(i 0).val, hi0⟩ ⟨(i 1).val / 10000, by omega⟩
  have q0 : win1_6.index t (0 : Fin 3) = (i 0).val := congrFun ht 0
  have q1 : win1_6.index t (1 : Fin 3) = (i 1).val / 10000 := congrFun ht 1
  have q2 : win1_6.index t (2 : Fin 3) = 0 := congrFun ht 2
  refine ⟨t, flush1_6 t, ?_⟩
  rw [mem_blk1]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 10000 ≤ (i 1).val ∧ (i 1).val < win1_6.index t (1 : Fin 3) * 10000 + 10000; omega
  | ⟨2, _⟩ => show win1_6.index t (2 : Fin 3) * 64 ≤ (i 2).val ∧ (i 2).val < win1_6.index t (2 : Fin 3) * 64 + 64; omega

/-- The region's output array after its grid: the per-offset product of the normalised, rectified gathered array (as
    the region finds it) with the second convolution's weights. -/
theorem final1 (c : Dev nD) :
    (dat1 V c).arrAt 6 cfg1.N
      = gemmBn (row (V c main_v27 : SR.Idx → EReal)) (row (V c main_v28 : SR.Idx → EReal)) (row (V c main_v29 : SR.Idx → EReal))
          (row (V c main_v30 : SR.Idx → EReal)) (V c main_v26) (V c main_arg2) :=
  (dat1 V c).arrAt_eq_of_cover 6 _ (fun t _ => flushed_eq1 V c t) cover1

end Blocks

end Cert.KernelIdeal.Reg1

end
-- ==== Proof.Reg2.lean ====
/-
  The third region (the normalize–scale–shift–residual–clamp kernel over 20 blocks of 5000 rows) read as ONE function of
  its six operand arrays.

  Per block the body stores
      max (((y − mean) · rsqrt (var + ε)) · γ + β + res, 0),
  the four per-channel operands being single rows of 128 lanes broadcast down the 5000 rows. Every entry (r, l) of the
  result therefore depends only on y (r, l), res (r, l) and the four rows at lane l: `laneOut`. Grid point t handles
  rows 5000·t … 5000·t + 4999 of both large operands and of the result and the whole of each row operand, so what point
  t writes back is block t of `laneOut` (`flushed_eq`); row r lies in block r / 5000 (`cover`); hence the result array
  after the region IS `laneOut` of the operands as the region found them (`final2`).
-/
import proofs.«160069_j68350109548654_2_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.Reg2

open Cert.KernelIdeal Cert.KernelIdeal.Gen

/-- The zero offsets, however they are spelt. -/
theorem hz : (![0, 0] : Fin 2 → Nat) = fun _ => 0 := funext fun a => by fin_cases a <;> rfl

/-- The result at an entry `i` of lane `l`: the normalized, scaled and shifted entry plus the residual, clamped below at
    the zero word; the four per-channel rows are read at lane `l`. -/
def laneVal (y res : FVec Ideal S100000x128 .f32) (gamma beta mean var : FVec Ideal S1x128 .f32)
    (i : S100000x128.Idx) (l : Fin 128) : EReal :=
  max ((((y i - mean (ix2 (0 : Fin 1) l)) * Ideal.rsqrt (var (ix2 (0 : Fin 1) l) + Ideal.ofBits .f32 0x3727C5AC#32))
        * gamma (ix2 (0 : Fin 1) l) + beta (ix2 (0 : Fin 1) l)) + res i)
    (Ideal.ofBits .f32 0x00000000#32)

/-- The whole result array as one function of the six operand arrays, entry by entry: entry (r, l) reads the two
    large arrays at (r, l) and the four rows at (0, l). -/
def laneOut (y res : FVec Ideal S100000x128 .f32) (gamma beta mean var : FVec Ideal S1x128 .f32) :
    FVec Ideal S100000x128 .f32 := fun i => laneVal y res gamma beta mean var i (i 1)

/-- The value the body stores at row `p`, lane `l` of a block: the two large operands read at (p, l), the four row
    operands at (0, l). -/
theorem pay_apply (x0 x1 : Vec Ideal S5000x128 .f32) (x2 x3 x4 x5 : Vec Ideal S1x128 .f32) (p : Fin 5000) (l : Fin 128) :
    k2_pay1 (F := Ideal) x0 x4 x5 x2 x3 x1 (ix2 p l)
      = max ((((x0 (ix2 p l) - x4 (ix2 (0 : Fin 1) l)) * Ideal.rsqrt (x5 (ix2 (0 : Fin 1) l) + Ideal.ofBits .f32 0x3727C5AC#32))
              * x2 (ix2 (0 : Fin 1) l) + x3 (ix2 (0 : Fin 1) l)) + x1 (ix2 p l))
          (Ideal.ofBits .f32 0x00000000#32) := by
  have hb : ∀ (v : FVec Ideal S1x128 .f32), broadcastTo S5000x128 v Facts₀.broadcasts_S1x128_S5000x128 (ix2 p l) = v (ix2 (0 : Fin 1) l) :=
    fun v => broadcastTo_apply v _ (ix2 p l) (ix2 (0 : Fin 1) l) (fun a => by match a with | ⟨0, _⟩ => rfl | ⟨1, _⟩ => rfl)
  unfold k2_pay1
  simp only [shapeCast_self]
  simp only [maximumf_apply, addf_apply, mulf_apply, subf_apply, hb, broadcast_apply]
  rfl

/-- The payload at any entry of a block: the same formula with the lane read off the entry. -/
theorem pay_idx (x0 x1 : Vec Ideal S5000x128 .f32) (x2 x3 x4 x5 : Vec Ideal S1x128 .f32) (j : S5000x128.Idx) :
    k2_pay1 (F := Ideal) x0 x4 x5 x2 x3 x1 j
      = max ((((x0 j - x4 (ix2 (0 : Fin 1) (j 1))) * Ideal.rsqrt (x5 (ix2 (0 : Fin 1) (j 1)) + Ideal.ofBits .f32 0x3727C5AC#32))
              * x2 (ix2 (0 : Fin 1) (j 1)) + x3 (ix2 (0 : Fin 1) (j 1))) + x1 j)
          (Ideal.ofBits .f32 0x00000000#32) := by
  obtain ⟨p, l, rfl⟩ : ∃ (p : Fin 5000) (l : Fin 128), j = ix2 p l := ⟨j 0, j 1, eq_ix2 j⟩
  exact pay_apply x0 x1 x2 x3 x4 x5 p l

/-- The result array at an entry whose lane is `l`. -/
theorem laneOut_at (y res : FVec Ideal S100000x128 .f32) (g b m v : FVec Ideal S1x128 .f32) (i : S100000x128.Idx) (l : Fin 128)
    (hl : (i 1).val = l.val) :
    laneOut y res g b m v i = laneVal y res g b m v i l :=
  congrArg (laneVal y res g b m v i) (Fin.ext hl)

variable (V : (c : Dev nD) → (b : Ref sig .tc) → Buf (Elt Ideal) ((c : Thread nD τ).loc b))

/-- Every window's block index at grid point `t`: the three large windows sit at row block `t`, lane block 0; the four
    row windows stay at the origin. -/
theorem idx_facts : ∀ t : Fin cfg2.N,
      win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Point `t`'s block of `y`, entry by entry, is the array read where the result's block at `t` sits. -/
theorem blk_y (c : Dev nD) (t : Fin cfg2.N) (j : S5000x128.Idx) :
    (iblk2 V c 0 t : Vec Ideal S5000x128 .f32) j = (V c main_v42 : Vec Ideal S100000x128 .f32) (((cfg2.win 6).blk t).view.emb j) := by
  obtain ⟨e60, e61, e00, e01, -⟩ := idx_facts t
  unfold iblk2
  show (V c main_v42 : Vec Ideal S100000x128 .f32) (((cfg2.win 0).blk t).view.emb j) = _
  refine congrArg (V c main_v42 : Vec Ideal S100000x128 .f32) (funext fun a => Fin.ext ?_)
  match a with
  | ⟨0, _⟩ => show win2_0.index t (0 : Fin 2) * 5000 + 1 * (j 0).val = win2_6.index t (0 : Fin 2) * 5000 + 1 * (j 0).val; rw [e00, e60]
  | ⟨1, _⟩ => show win2_0.index t (1 : Fin 2) * 128 + 1 * (j 1).val = win2_6.index t (1 : Fin 2) * 128 + 1 * (j 1).val; rw [e01, e61]

/-- A row operand's block at any grid point is the whole row: γ. -/
theorem blk_g (c : Dev nD) (t : Fin cfg2.N) (y : S1x128.Idx) :
    (iblk2 V c 2 t : Vec Ideal S1x128 .f32) y = (V c main_v47 : Vec Ideal S1x128 .f32) y := by
  obtain ⟨-, -, -, -, -, -, e0, e1, -⟩ := idx_facts t
  unfold iblk2
  show (V c main_v47 : Vec Ideal S1x128 .f32) (((cfg2.win 2).blk t).view.emb y) = _
  refine congrArg (V c main_v47 : Vec Ideal S1x128 .f32) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The same for the residual. -/
theorem blk_res (c : Dev nD) (t : Fin cfg2.N) (j : S5000x128.Idx) :
    (iblk2 V c 1 t : Vec Ideal S5000x128 .f32) j = (V c main_v43 : Vec Ideal S100000x128 .f32) (((cfg2.win 6).blk t).view.emb j) := by
  obtain ⟨e60, e61, -, -, e10, e11, -⟩ := idx_facts t
  unfold iblk2
  show (V c main_v43 : Vec Ideal S100000x128 .f32) (((cfg2.win 1).blk t).view.emb j) = _
  refine congrArg (V c main_v43 : Vec Ideal S100000x128 .f32) (funext fun a => Fin.ext ?_)
  match a with
  | ⟨0, _⟩ => show win2_1.index t (0 : Fin 2) * 5000 + 1 * (j 0).val = win2_6.index t (0 : Fin 2) * 5000 + 1 * (j 0).val; rw [e10, e60]
  | ⟨1, _⟩ => show win2_1.index t (1 : Fin 2) * 128 + 1 * (j 1).val = win2_6.index t (1 : Fin 2) * 128 + 1 * (j 1).val; rw [e11, e61]

/-- β. -/
theorem blk_b (c : Dev nD) (t : Fin cfg2.N) (y : S1x128.Idx) :
    (iblk2 V c 3 t : Vec Ideal S1x128 .f32) y = (V c main_v51 : Vec Ideal S1x128 .f32) y := by
  obtain ⟨-, -, -, -, -, -, -, -, e0, e1, -⟩ := idx_facts t
  unfold iblk2
  show (V c main_v51 : Vec Ideal S1x128 .f32) (((cfg2.win 3).blk t).view.emb y) = _
  refine congrArg (V c main_v51 : Vec Ideal S1x128 .f32) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The mean. -/
theorem blk_m (c : Dev nD) (t : Fin cfg2.N) (y : S1x128.Idx) :
    (iblk2 V c 4 t : Vec Ideal S1x128 .f32) y = (V c main_v55 : Vec Ideal S1x128 .f32) y := by
  obtain ⟨-, -, -, -, -, -, -, -, -, -, e0, e1, -⟩ := idx_facts t
  unfold iblk2
  show (V c main_v55 : Vec Ideal S1x128 .f32) (((cfg2.win 4).blk t).view.emb y) = _
  refine congrArg (V c main_v55 : Vec Ideal S1x128 .f32) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The variance. -/
theorem blk_v (c : Dev nD) (t : Fin cfg2.N) (y : S1x128.Idx) :
    (iblk2 V c 5 t : Vec Ideal S1x128 .f32) y = (V c main_v59 : Vec Ideal S1x128 .f32) y := by
  obtain ⟨-, -, -, -, -, -, -, -, -, -, -, -, e0, e1⟩ := idx_facts t
  unfold iblk2
  show (V c main_v59 : Vec Ideal S1x128 .f32) (((cfg2.win 5).blk t).view.emb y) = _
  refine congrArg (V c main_v59 : Vec Ideal S1x128 .f32) (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The lane of a block's entry in the array is its lane in the block: the output's blocks span all 128 lanes. -/
theorem emb_lane (t : Fin cfg2.N) (j : S5000x128.Idx) :
    ((((cfg2.win 6).blk t).view.emb j : S100000x128.Idx) 1).val = (j 1).val := by
  obtain ⟨-, e61, -⟩ := idx_facts t
  show win2_6.index t (1 : Fin 2) * 128 + 1 * (j 1).val = (j 1).val
  rw [e61]; omega

/-- What grid point `t` writes back is block `t` of `laneOut` of the operand arrays. -/
theorem flushed_eq (c : Dev nD) (t : Fin cfg2.N) :
    (dat2 (F := Ideal) V c).flushed 6 t = ((cfg2.win 6).blk t).view.read (Elt Ideal)
      (laneOut (V c main_v42) (V c main_v43) (V c main_v47) (V c main_v51) (V c main_v55) (V c main_v59)) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  funext j
  refine (pay_idx (iblk2 V c 0 t) (iblk2 V c 1 t) (iblk2 V c 2 t) (iblk2 V c 3 t) (iblk2 V c 4 t) (iblk2 V c 5 t) j).trans ?_
  rw [blk_y V c t j, blk_res V c t j, blk_g V c t, blk_b V c t, blk_m V c t, blk_v V c t]
  refine Eq.trans ?_ (laneOut_at (V c main_v42) (V c main_v43) (V c main_v47) (V c main_v51) (V c main_v55) (V c main_v59)
    (((cfg2.win 6).blk t).view.emb j) (j 1) (emb_lane t j)).symm
  rfl

/-- An entry of the array lies in point `t`'s block iff each coordinate lies in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v60).slice (win2_6.rect t)).set ↔ _
  rw [View.set_slice_whole, Rect.mem_set_unit]
  exact Iff.rfl

/-- Row `r` lies in the block of grid point `r / 5000`: the twenty blocks of 5000 rows tile the 100000 rows. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e60, e61, -⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    rw [e60, ht]; omega
  | ⟨1, _⟩ =>
    show win2_6.index t (1 : Fin 2) * 128 ≤ (i 1).val ∧ (i 1).val < win2_6.index t (1 : Fin 2) * 128 + 128
    rw [e61]; omega

/-- After the third region the result array is `laneOut` of the six operand arrays as the region found them. -/
theorem final2 (c : Dev nD) :
    (dat2 (F := Ideal) V c).arrAt 6 cfg2.N
      = laneOut (V c main_v42) (V c main_v43) (V c main_v47) (V c main_v51) (V c main_v55) (V c main_v59) :=
  (dat2 (F := Ideal) V c).arrAt_eq_of_cover 6
    (laneOut (V c main_v42) (V c main_v43) (V c main_v47) (V c main_v51) (V c main_v55) (V c main_v59))
    (fun t _ => flushed_eq V c t) cover

end Cert.KernelIdeal.Reg2

end
-- ==== Proof.LaneDense.lean ====
/-
  The layout algebra around the third region.

  The host lays the [200000,64] arrays out as [100000,128] (two consecutive rows side by side) and each per-channel
  vector of 64 entries as one row of 128 lanes (two copies side by side), and reshapes the region's result back. A
  reshape preserves row-major position, so entry (i, ch) of a narrow array is entry (i / 2, (i % 2) · 64 + ch) of the
  wide one, and lane (i % 2) · 64 + ch of a tiled vector holds channel ch. Hence the round trip through the region's
  entrywise function is, entry by entry, the per-channel formula
      max (((Y − mean) · rsqrt (var + ε)) · γ + β + X, 0)
  on [200000,64] with the vectors broadcast down the rows, which is the reference's tail (`lane_dense`): both sides are
  the same expression in the same entries (`denseVal`), the reciprocal square root the same function of the extended
  reals on both sides, the two literal words never evaluated.
-/
import proofs.«160069_j68350109548654_2_alg».proof.Proof.Reg2
import proofs.«160069_j68350109548654_2_alg».proof.Proof.Mid
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.ValueIdx

namespace Cert.LaneDense

/-! ## The kernel side's layout operations, read at an index -/

section KernelSide
open Cert.KernelIdeal Cert.KernelIdeal.Facts₀

/-- A per-channel vector of 64 entries laid along the 128 lanes of one row: [64] → [1,64] → two equal rows [2,64] →
    [128] → [1,128]; lane `l` holds channel `l % 64`. -/
def tile (p : FVec Ideal S64 .f32) : FVec Ideal S1x128 .f32 :=
  shapeCast S1x128 (shapeCast S128 (broadcastInDim S2x64 ![0, 1] bcast_S1x64_S2x64_0_1
    (shapeCast S1x64 p shapeCasts_S64_S1x64)) shapeCasts_S2x64_S128) shapeCasts_S128_S1x128

theorem tile_apply (p : FVec Ideal S64 .f32) (l : Fin 128) (ch : Fin 64) (h : l.val % 64 = ch.val) :
    tile p (ix2 (0 : Fin 1) l) = p (ix1 ch) := by
  have hl : l.val < 128 := l.isLt
  unfold tile
  refine (shapeCast_apply _ shapeCasts_S128_S1x128 (ix2 (0 : Fin 1) l) (ix1 l) ?_).trans ?_
  · rw [Shape.rowMajor_val_two, Shape.rowMajor_val_one]; show l.val = 0 * 128 + l.val; omega
  refine (shapeCast_apply _ shapeCasts_S2x64_S128 (ix1 l) (ix2 (⟨l.val / 64, by omega⟩ : Fin 2) ch) ?_).trans ?_
  · rw [Shape.rowMajor_val_two, Shape.rowMajor_val_one]; show l.val / 64 * 64 + ch.val = l.val; omega
  refine (broadcastInDim_apply ![0, 1] bcast_S1x64_S2x64_0_1 _ (ix2 (⟨l.val / 64, by omega⟩ : Fin 2) ch) (ix2 (0 : Fin 1) ch) ?_).trans ?_
  · intro a; match a with | ⟨0, _⟩ => rfl | ⟨1, _⟩ => rfl
  refine shapeCast_apply p shapeCasts_S64_S1x64 (ix2 (0 : Fin 1) ch) (ix1 ch) ?_
  rw [Shape.rowMajor_val_two, Shape.rowMajor_val_one]; show ch.val = 0 * 64 + ch.val; omega

/-- The row-major reshape [200000,64] → [100000,128]: entry (r, l) of the wide array is entry (i, ch) of the narrow one
    when r = i / 2 and l = (i % 2) · 64 + ch. -/
theorem widen_apply (Y : FVec Ideal S200000x64 .f32) (i : Fin 200000) (ch : Fin 64) (r : Fin 100000) (l : Fin 128)
    (hr : r.val = i.val / 2) (hl : l.val = i.val % 2 * 64 + ch.val) :
    shapeCast S100000x128 Y shapeCasts_S200000x64_S100000x128 (ix2 r l) = Y (ix2 i ch) :=
  shapeCast_apply Y shapeCasts_S200000x64_S100000x128 (ix2 r l) (ix2 i ch) (by
    rw [Shape.rowMajor_val_two, Shape.rowMajor_val_two]
    show i.val * 64 + ch.val = r.val * 128 + l.val
    omega)

/-- And back: entry (i, ch) of the narrow array is entry (i / 2, (i % 2) · 64 + ch) of the wide one. -/
theorem narrow_apply (Z : FVec Ideal S100000x128 .f32) (i : Fin 200000) (ch : Fin 64) (r : Fin 100000) (l : Fin 128)
    (hr : r.val = i.val / 2) (hl : l.val = i.val % 2 * 64 + ch.val) :
    shapeCast S200000x64 Z shapeCasts_S100000x128_S200000x64 (ix2 i ch) = Z (ix2 r l) :=
  shapeCast_apply Z shapeCasts_S100000x128_S200000x64 (ix2 i ch) (ix2 r l) (by
    rw [Shape.rowMajor_val_two, Shape.rowMajor_val_two]
    show r.val * 128 + l.val = i.val * 64 + ch.val
    omega)

/-- The common value of both sides at entry (i, ch). -/
def denseVal (Y X : FVec Ideal S200000x64 .f32) (gamma beta mean var : FVec Ideal S64 .f32) (i : Fin 200000) (ch : Fin 64) : EReal :=
  max ((((Y (ix2 i ch) - mean (ix1 ch)) * Ideal.rsqrt (var (ix1 ch) + Ideal.ofBits .f32 0x3727C5AC#32))
        * gamma (ix1 ch) + beta (ix1 ch)) + X (ix2 i ch))
    (Ideal.ofBits .f32 0x00000000#32)

/-- The kernel side at entry (i, ch). -/
theorem kernel_apply (Y X : FVec Ideal S200000x64 .f32) (gamma beta mean var : FVec Ideal S64 .f32) (i : Fin 200000) (ch : Fin 64) :
    shapeCast S200000x64
      (Cert.KernelIdeal.Reg2.laneOut (shapeCast S100000x128 Y shapeCasts_S200000x64_S100000x128)
        (shapeCast S100000x128 X shapeCasts_S200000x64_S100000x128) (tile gamma) (tile beta) (tile mean) (tile var))
      shapeCasts_S100000x128_S200000x64 (ix2 i ch)
    = denseVal Y X gamma beta mean var i ch := by
  have hi : i.val < 200000 := i.isLt
  have hc : ch.val < 64 := ch.isLt
  obtain ⟨r, hr⟩ : ∃ r : Fin 100000, r.val = i.val / 2 := ⟨⟨i.val / 2, by omega⟩, rfl⟩
  obtain ⟨l, hl⟩ : ∃ l : Fin 128, l.val = i.val % 2 * 64 + ch.val := ⟨⟨i.val % 2 * 64 + ch.val, by omega⟩, rfl⟩
  have hlc : l.val % 64 = ch.val := by omega
  refine (narrow_apply _ i ch r l hr hl).trans ?_
  refine (Cert.KernelIdeal.Reg2.laneOut_at _ _ _ _ _ _ (ix2 r l) l rfl).trans ?_
  unfold Cert.KernelIdeal.Reg2.laneVal denseVal
  rw [widen_apply Y i ch r l hr hl, widen_apply X i ch r l hr hl, tile_apply gamma l ch hlc, tile_apply beta l ch hlc,
    tile_apply mean l ch hlc, tile_apply var l ch hlc]

end KernelSide

/-! ## The reference's tail, read at an index -/

section ReferenceSide
open Cert.ReferenceIdeal Cert.ReferenceIdeal.Gen

/-- A per-channel vector repeated down the 200000 rows: [64] → [1,64] → [200000,64]. -/
def rows (p : FVec Ideal S64 .f32) : FVec Ideal S200000x64 .f32 :=
  broadcastInDim S200000x64 ![0, 1] bcast_S1x64_S200000x64_0_1 (broadcastInDim S1x64 ![1] bcast_S64_S1x64_1 p)

/-- Row `i`, column `ch` of the repeated vector is channel `ch`. -/
theorem rows_apply (p : FVec Ideal S64 .f32) (i : Fin 200000) (ch : Fin 64) : rows p (ix2 i ch) = p (ix1 ch) := by
  unfold rows
  refine (broadcastInDim_apply ![0, 1] bcast_S1x64_S200000x64_0_1 _ (ix2 i ch) (ix2 (0 : Fin 1) ch) ?_).trans ?_
  · intro a; match a with | ⟨0, _⟩ => rfl | ⟨1, _⟩ => rfl
  refine broadcastInDim_apply ![1] bcast_S64_S1x64_1 p (ix2 (0 : Fin 1) ch) (ix1 ch) ?_
  intro a; match a with | ⟨0, _⟩ => rfl

/-- The reference's tail at entry (i, ch): the per-channel vectors are read at channel `ch`, the reciprocal square root
    and the two literal words as they stand. -/
theorem tail_apply (Y X : FVec Ideal S200000x64 .f32) (gamma beta mean var : FVec Ideal S64 .f32) (i : Fin 200000) (ch : Fin 64) :
    Cert.Mid.tail Y X gamma beta mean var (ix2 i ch) = denseVal Y X gamma beta mean var i ch := by
  show max ((((Y (ix2 i ch) - rows mean (ix2 i ch))
        * rows (Host.rsqrt (F := Ideal) (addf var (broadcastInDim S64 ![] bcast_S_S64 (constant (F := Ideal) S_ .f32 0x3727C5AC#32)))) (ix2 i ch))
        * rows gamma (ix2 i ch) + rows beta (ix2 i ch)) + X (ix2 i ch))
      (Ideal.ofBits .f32 0x00000000#32) = _
  rw [rows_apply, rows_apply, rows_apply, rows_apply]
  rfl

end ReferenceSide

section Main
open Cert.KernelIdeal Cert.KernelIdeal.Facts₀

/-- THE LAYOUT ALGEBRA: reshaping [200000,64] to [100000,128], running the lane-dense formula with every per-channel vector
    tiled twice along the lanes, and reshaping back, is the reference's tail on [200000,64]. Entry (i, ch) of the narrow
    array is entry (i / 2, (i % 2) · 64 + ch) of the wide one, whose lane holds channel ((i % 2) · 64 + ch) % 64 = ch. -/
theorem lane_dense (Y X : FVec Ideal S200000x64 .f32) (gamma beta mean var : FVec Ideal S64 .f32) :
    shapeCast S200000x64
      (Cert.KernelIdeal.Reg2.laneOut (shapeCast S100000x128 Y shapeCasts_S200000x64_S100000x128)
        (shapeCast S100000x128 X shapeCasts_S200000x64_S100000x128)
        (shapeCast S1x128 (shapeCast S128 (broadcastInDim S2x64 ![0, 1] bcast_S1x64_S2x64_0_1
          (shapeCast S1x64 gamma shapeCasts_S64_S1x64)) shapeCasts_S2x64_S128) shapeCasts_S128_S1x128)
        (shapeCast S1x128 (shapeCast S128 (broadcastInDim S2x64 ![0, 1] bcast_S1x64_S2x64_0_1
          (shapeCast S1x64 beta shapeCasts_S64_S1x64)) shapeCasts_S2x64_S128) shapeCasts_S128_S1x128)
        (shapeCast S1x128 (shapeCast S128 (broadcastInDim S2x64 ![0, 1] bcast_S1x64_S2x64_0_1
          (shapeCast S1x64 mean shapeCasts_S64_S1x64)) shapeCasts_S2x64_S128) shapeCasts_S128_S1x128)
        (shapeCast S1x128 (shapeCast S128 (broadcastInDim S2x64 ![0, 1] bcast_S1x64_S2x64_0_1
          (shapeCast S1x64 var shapeCasts_S64_S1x64)) shapeCasts_S2x64_S128) shapeCasts_S128_S1x128))
      shapeCasts_S100000x128_S200000x64
    = Cert.Mid.tail Y X gamma beta mean var := by
  funext j
  obtain ⟨i, ch, rfl⟩ : ∃ (i : Fin 200000) (ch : Fin 64), j = ix2 i ch := ⟨j 0, j 1, eq_ix2 j⟩
  exact (kernel_apply Y X gamma beta mean var i ch).trans (tail_apply Y X gamma beta mean var i ch).symm

end Main

end Cert.LaneDense

end
-- ==== Proof.KValue.lean ====
/-
  The idealized kernel program's result as a function of its arguments.  The buffer contents at the boundaries of
  @main are a fold: a stretch of host operations applies them, a region leaves its output array at what its grid's
  write-backs compose to.  Read at the result's buffer, stage by stage: the first region's array is the per-offset
  product of the gathered input rows with the first weights; scattered, it is the first convolution; the second
  region's array is the product of the normalised, rectified gathered rows of that convolution with the second
  weights; scattered, it is the second convolution; the third region applies the second batch norm, the residual
  and the rectifier on the arrays repacked two rows to a lane-dense row, which unpacked is the tail applied to the
  second convolution.  This is the common form of Mid.lean.
-/
import proofs.«160069_j68350109548654_2_alg».proof.Proof.Gen.KernelIdeal.Frame
import proofs.«160069_j68350109548654_2_alg».proof.Proof.Mid
import proofs.«160069_j68350109548654_2_alg».proof.Proof.Fold
import proofs.«160069_j68350109548654_2_alg».proof.Proof.Stages
import proofs.«160069_j68350109548654_2_alg».proof.Proof.Reg0
import proofs.«160069_j68350109548654_2_alg».proof.Proof.Reg1
import proofs.«160069_j68350109548654_2_alg».proof.Proof.Reg2
import proofs.«160069_j68350109548654_2_alg».proof.Proof.LaneDense

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first region's output array: the per-offset product of the gathered input rows with the first weights. -/
theorem prod1 (c : Dev nD) :
    W2 m ρ c (Proc.devRef .tc main_v8)
      = Cert.Spec.gemm (Host.gather Cert.ReferenceIdeal.gather_S200000x64_S27x100000x1_S27x100000x64_2_0_n_n_0_2_164 (m ((c.tc : Thread nD τ).loc main_arg0)) (Cert.Mid.idxIn (m ((c.tc : Thread nD τ).loc main_arg11)))) (m ((c.tc : Thread nD τ).loc main_arg1)) := by
  have e7 : V1 m ρ c main_v7 = Host.gather Cert.ReferenceIdeal.gather_S200000x64_S27x100000x1_S27x100000x64_2_0_n_n_0_2_164 (m ((c.tc : Thread nD τ).loc main_arg0)) (Cert.Mid.idxIn (m ((c.tc : Thread nD τ).loc main_arg11))) :=
    Stages.st0_v7 (W0 m ρ c) _ _ rfl rfl
  refine (W2_arr m ρ c 2).trans ((Reg0.final0 (V1 m ρ) c).trans ?_)
  exact congrArg₂ Cert.Spec.gemm e7 (Fold.W1_arg1 m ρ c)

/-- The second region's output array: the product of the normalised, rectified gathered rows of the first
    convolution with the second weights. -/
theorem prod2 (c : Dev nD) :
    W4 m ρ c (Proc.devRef .tc main_v31)
      = Cert.Spec.gemmBn (m ((c.tc : Thread nD τ).loc main_arg3)) (m ((c.tc : Thread nD τ).loc main_arg4)) (m ((c.tc : Thread nD τ).loc main_arg5)) (m ((c.tc : Thread nD τ).loc main_arg6))
          (Host.gather Cert.ReferenceIdeal.gather_S200000x64_S27x100000x1_S27x100000x64_2_0_n_n_0_2_164 (Cert.Mid.conv1 (m ((c.tc : Thread nD τ).loc main_arg0)) (m ((c.tc : Thread nD τ).loc main_arg1)) (m ((c.tc : Thread nD τ).loc main_arg11)) (m ((c.tc : Thread nD τ).loc main_arg12))) (Cert.Mid.idxIn (m ((c.tc : Thread nD τ).loc main_arg11)))) (m ((c.tc : Thread nD τ).loc main_arg2)) := by
  have e26 : V3 m ρ c main_v26 = Host.gather Cert.ReferenceIdeal.gather_S200000x64_S27x100000x1_S27x100000x64_2_0_n_n_0_2_164 (Cert.Mid.conv1 (m ((c.tc : Thread nD τ).loc main_arg0)) (m ((c.tc : Thread nD τ).loc main_arg1)) (m ((c.tc : Thread nD τ).loc main_arg11)) (m ((c.tc : Thread nD τ).loc main_arg12))) (Cert.Mid.idxIn (m ((c.tc : Thread nD τ).loc main_arg11))) :=
    Stages.st1_v26 (W2 m ρ c) _ _ _ (prod1 m ρ c) (Fold.W2_arg11 m ρ c) (Fold.W2_arg12 m ρ c)
  have r27 := Stages.st1_main_v27 (W2 m ρ c) _ (Fold.W2_arg3 m ρ c)
  have r28 := Stages.st1_main_v28 (W2 m ρ c) _ (Fold.W2_arg4 m ρ c)
  have r29 := Stages.st1_main_v29 (W2 m ρ c) _ (Fold.W2_arg5 m ρ c)
  have r30 := Stages.st1_main_v30 (W2 m ρ c) _ (Fold.W2_arg6 m ρ c)
  refine (W4_arr m ρ c 6).trans ((Reg1.final1 (V3 m ρ) c).trans ?_)
  show Cert.Spec.gemmBn (Cert.Spec.row (W3 m ρ c (Proc.devRef .tc main_v27))) (Cert.Spec.row (W3 m ρ c (Proc.devRef .tc main_v28)))
      (Cert.Spec.row (W3 m ρ c (Proc.devRef .tc main_v29))) (Cert.Spec.row (W3 m ρ c (Proc.devRef .tc main_v30)))
      (V3 m ρ c main_v26) (V3 m ρ c main_arg2) = _
  rw [r27, r28, r29, r30]
  exact congrArg₂ (Cert.Spec.gemmBn (m ((c.tc : Thread nD τ).loc main_arg3)) (m ((c.tc : Thread nD τ).loc main_arg4)) (m ((c.tc : Thread nD τ).loc main_arg5)) (m ((c.tc : Thread nD τ).loc main_arg6))) e26 (Fold.W3_arg2 m ρ c)

/-- The third region's output array: the lane-dense tail of the repacked second convolution. -/
theorem lanes (c : Dev nD) :
    W6 m ρ c (Proc.devRef .tc main_v60)
      = Reg2.laneOut (shapeCast S100000x128 (Cert.Mid.conv2 (Cert.Mid.conv1 (m ((c.tc : Thread nD τ).loc main_arg0)) (m ((c.tc : Thread nD τ).loc main_arg1)) (m ((c.tc : Thread nD τ).loc main_arg11)) (m ((c.tc : Thread nD τ).loc main_arg12))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12))) shapeCasts_S200000x64_S100000x128)
          (shapeCast S100000x128 (m ((c.tc : Thread nD τ).loc main_arg0)) shapeCasts_S200000x64_S100000x128)
          (shapeCast S1x128 (shapeCast S128 (broadcastInDim S2x64 ![0, 1] bcast_S1x64_S2x64_0_1 (shapeCast S1x64 (m ((c.tc : Thread nD τ).loc main_arg7)) shapeCasts_S64_S1x64)) shapeCasts_S2x64_S128) shapeCasts_S128_S1x128) (shapeCast S1x128 (shapeCast S128 (broadcastInDim S2x64 ![0, 1] bcast_S1x64_S2x64_0_1 (shapeCast S1x64 (m ((c.tc : Thread nD τ).loc main_arg8)) shapeCasts_S64_S1x64)) shapeCasts_S2x64_S128) shapeCasts_S128_S1x128) (shapeCast S1x128 (shapeCast S128 (broadcastInDim S2x64 ![0, 1] bcast_S1x64_S2x64_0_1 (shapeCast S1x64 (m ((c.tc : Thread nD τ).loc main_arg9)) shapeCasts_S64_S1x64)) shapeCasts_S2x64_S128) shapeCasts_S128_S1x128) (shapeCast S1x128 (shapeCast S128 (broadcastInDim S2x64 ![0, 1] bcast_S1x64_S2x64_0_1 (shapeCast S1x64 (m ((c.tc : Thread nD τ).loc main_arg10)) shapeCasts_S64_S1x64)) shapeCasts_S2x64_S128) shapeCasts_S128_S1x128) := by
  have e42 : V5 m ρ c main_v42 = shapeCast S100000x128 (Cert.Mid.conv2 (Cert.Mid.conv1 (m ((c.tc : Thread nD τ).loc main_arg0)) (m ((c.tc : Thread nD τ).loc main_arg1)) (m ((c.tc : Thread nD τ).loc main_arg11)) (m ((c.tc : Thread nD τ).loc main_arg12))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12))) shapeCasts_S200000x64_S100000x128 :=
    Stages.st2_v42 (W4 m ρ c) _ _ (prod2 m ρ c) (Fold.W4_arg12 m ρ c)
  have e43 : V5 m ρ c main_v43 = shapeCast S100000x128 (m ((c.tc : Thread nD τ).loc main_arg0)) shapeCasts_S200000x64_S100000x128 :=
    Stages.st2_v43 (W4 m ρ c) _ (Fold.W4_arg0 m ρ c)
  have e47 : V5 m ρ c main_v47 = (shapeCast S1x128 (shapeCast S128 (broadcastInDim S2x64 ![0, 1] bcast_S1x64_S2x64_0_1 (shapeCast S1x64 (m ((c.tc : Thread nD τ).loc main_arg7)) shapeCasts_S64_S1x64)) shapeCasts_S2x64_S128) shapeCasts_S128_S1x128) := Stages.st2_main_v47 (W4 m ρ c) _ (Fold.W4_arg7 m ρ c)
  have e51 : V5 m ρ c main_v51 = (shapeCast S1x128 (shapeCast S128 (broadcastInDim S2x64 ![0, 1] bcast_S1x64_S2x64_0_1 (shapeCast S1x64 (m ((c.tc : Thread nD τ).loc main_arg8)) shapeCasts_S64_S1x64)) shapeCasts_S2x64_S128) shapeCasts_S128_S1x128) := Stages.st2_main_v51 (W4 m ρ c) _ (Fold.W4_arg8 m ρ c)
  have e55 : V5 m ρ c main_v55 = (shapeCast S1x128 (shapeCast S128 (broadcastInDim S2x64 ![0, 1] bcast_S1x64_S2x64_0_1 (shapeCast S1x64 (m ((c.tc : Thread nD τ).loc main_arg9)) shapeCasts_S64_S1x64)) shapeCasts_S2x64_S128) shapeCasts_S128_S1x128) := Stages.st2_main_v55 (W4 m ρ c) _ (Fold.W4_arg9 m ρ c)
  have e59 : V5 m ρ c main_v59 = (shapeCast S1x128 (shapeCast S128 (broadcastInDim S2x64 ![0, 1] bcast_S1x64_S2x64_0_1 (shapeCast S1x64 (m ((c.tc : Thread nD τ).loc main_arg10)) shapeCasts_S64_S1x64)) shapeCasts_S2x64_S128) shapeCasts_S128_S1x128) := Stages.st2_main_v59 (W4 m ρ c) _ (Fold.W4_arg10 m ρ c)
  refine (W6_arr m ρ c 6).trans ((Reg2.final2 (V5 m ρ) c).trans ?_)
  rw [e42, e43, e47, e51, e55, e59]

/-- The result: the common form of the two programs, of the arguments as launched. -/
theorem kernel_value (c : Dev nD) :
    W7 m ρ c (Proc.devRef .tc main_v61)
      = Cert.Mid.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) :=
  (Stages.st3_v61 (W6 m ρ c) _ (lanes m ρ c)).trans
    (Cert.LaneDense.lane_dense (Cert.Mid.conv2 (Cert.Mid.conv1 (m ((c.tc : Thread nD τ).loc main_arg0)) (m ((c.tc : Thread nD τ).loc main_arg1)) (m ((c.tc : Thread nD τ).loc main_arg11)) (m ((c.tc : Thread nD τ).loc main_arg12))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)))

end Cert.KernelIdeal.KValue

end
-- ==== Proof.LibGatherRows.lean ====
/-
  A ROW GATHER of a rank-2 table, read at an index.

  What `x[idx]` of a table `x : [N, C]` at an integer array `idx : [K, M]` lowers to: `stablehlo.gather` with
  offset_dims `[2]`, collapsed_slice_dims `[0]`, start_index_map `[0]`, slice_sizes `[1, C]` and index_vector_dim 2
  over the indices as `[K, M, 1]`. Result element `(k, m, c)` is `x` at row `idx[k, m, 0]` (read as a signed integer
  and clamped into `[0, N − 1]`) and column `c`. So the gather moves whole rows and never touches the column
  coordinate: it commutes with any entrywise map, even one that also reads the column.
-/
import Idealize.ShloMosaic.Lib.ValueIdx

noncomputable section

namespace Cert.LibGatherRows

open Idealize.ShloMosaic Idealize.ShloMosaic.ValueIdx

section Rows
variable {α β : Type}

/-- The dimension numbers of the row gather for an operand `[N, C]`, start indices `[K, M, 1]` and result
    `[K, M, C]`; their conditions `wf` are decided on the literal shapes of a program. -/
abbrev rowsDims (N K M C : Nat)
    (wf : GatherDims.WF ⟨2, ![N, C]⟩ ⟨3, ![K, M, 1]⟩ ⟨3, ![K, M, C]⟩ [2] [0] [] [0] [] 2 ![1, C]) :
    GatherDims ⟨2, ![N, C]⟩ ⟨3, ![K, M, 1]⟩ ⟨3, ![K, M, C]⟩ where
  offsetDims := [2]
  collapsedSliceDims := [0]
  operandBatchingDims := []
  startIndicesBatchingDims := []
  startIndexMap := [0]
  indexVectorDim := 2
  sliceSizes := ![1, C]
  wf := wf

/-- The start-indices index `[k, m, 0]` of result index `(k, m, c)`. -/
abbrev rowsIdx {K M C : Nat} (j : (⟨3, ![K, M, C]⟩ : Shape).Idx) : (⟨3, ![K, M, 1]⟩ : Shape).Idx :=
  fun a => match a with | ⟨0, _⟩ => ⟨(j 0).val, (j 0).isLt⟩ | ⟨1, _⟩ => ⟨(j 1).val, (j 1).isLt⟩ | ⟨2, _⟩ => ⟨0, Nat.one_pos⟩

/-- THE COLUMN IS KEPT: the column of the operand index is the last coordinate of the result index. Axis 1 of the
    operand is not in the start index map (its slice starts at 0), is not a batching axis, and is the one operand
    axis that is neither collapsed nor batching, so the one offset axis of the result (axis 2) reads it. -/
theorem gather_rows_col {N K M C w : Nat}
    (wf : GatherDims.WF ⟨2, ![N, C]⟩ ⟨3, ![K, M, 1]⟩ ⟨3, ![K, M, C]⟩ [2] [0] [] [0] [] 2 ![1, C])
    (j : (⟨3, ![K, M, C]⟩ : Shape).Idx) (idx : IVec ⟨3, ![K, M, 1]⟩ w) :
    (((rowsDims N K M C wf).operandIdx j idx) 1).val = (j 2).val := by
  show (rowsDims N K M C wf).start j idx 1 + (rowsDims N K M C wf).batchCoord j 1
    + (rowsDims N K M C wf).offCoord j 1 = _
  have h10 : (1 : Fin 2) ∉ [(0 : Fin 2)] := by decide
  have hs : (rowsDims N K M C wf).start j idx 1 = 0 := by
    unfold GatherDims.start
    rw [dif_neg (show (1 : Fin 2) ∉ (rowsDims N K M C wf).startIndexMap from h10)]
  have hk : (1 : Fin 2) ∈ (rowsDims N K M C wf).sKept :=
    (GatherDims.mem_sKept _ _).2 ⟨h10, List.not_mem_nil⟩
  have ho : (rowsDims N K M C wf).offCoord j 1 = (j 2).val := by
    unfold GatherDims.offCoord
    rw [dif_pos hk]
    rfl
  rw [hs, GatherDims.batchCoord_eq_zero _ _ _ List.not_mem_nil, ho, Nat.zero_add]

/-- THE ROW IS THE CLAMPED START INDEX: the row of the operand index is the start index `idx[k, m, 0]` read as a
    signed integer and clamped into `[0, N − 1]` (axis 0 of the operand is collapsed, slice size 1, and is the one
    axis in the start index map). -/
theorem gather_rows_row {N K M C w : Nat}
    (wf : GatherDims.WF ⟨2, ![N, C]⟩ ⟨3, ![K, M, 1]⟩ ⟨3, ![K, M, C]⟩ [2] [0] [] [0] [] 2 ![1, C])
    (j : (⟨3, ![K, M, C]⟩ : Shape).Idx) (idx : IVec ⟨3, ![K, M, 1]⟩ w) :
    (((rowsDims N K M C wf).operandIdx j idx) 0).val = min (idx (rowsIdx j)).toInt.toNat (N - 1) := by
  show (rowsDims N K M C wf).start j idx 0 + (rowsDims N K M C wf).batchCoord j 0
    + (rowsDims N K M C wf).offCoord j 0 = _
  have h00 : (0 : Fin 2) ∈ [(0 : Fin 2)] := List.mem_singleton.mpr rfl
  rw [GatherDims.batchCoord_eq_zero _ _ _ List.not_mem_nil,
    GatherDims.offCoord_eq_zero _ _ _ (fun h => ((GatherDims.mem_sKept _ _).mp h).1 h00)]
  simp only [Nat.add_zero]
  unfold GatherDims.start
  rw [dif_pos (show (0 : Fin 2) ∈ (rowsDims N K M C wf).startIndexMap from h00)]
  have hsi : (rowsDims N K M C wf).siIdx j ⟨List.idxOf (0 : Fin 2) (rowsDims N K M C wf).startIndexMap,
      List.idxOf_lt_length_iff.2 h00⟩ = rowsIdx j := by
    funext b; refine Fin.ext ?_
    match b with
    | ⟨0, _⟩ => rfl
    | ⟨1, _⟩ => rfl
    | ⟨2, _⟩ => rfl
  rw [hsi]
  rfl

/-- THE GATHER READ AT `(k, m, c)`: the table at the row `idx[k, m, 0]`, read signed and clamped into `[0, N − 1]`,
    and the column `c`. -/
theorem gather_rows_apply {N K M C w : Nat} (hN : 0 < N)
    (wf : GatherDims.WF ⟨2, ![N, C]⟩ ⟨3, ![K, M, 1]⟩ ⟨3, ![K, M, C]⟩ [2] [0] [] [0] [] 2 ![1, C])
    (x : (⟨2, ![N, C]⟩ : Shape).Idx → α) (idx : IVec ⟨3, ![K, M, 1]⟩ w) (j : (⟨3, ![K, M, C]⟩ : Shape).Idx) :
    Host.gather (rowsDims N K M C wf) x idx j
      = x (ix2 (n0 := N) (n1 := C) ⟨min (idx (rowsIdx j)).toInt.toNat (N - 1), by omega⟩ ⟨(j 2).val, (j 2).isLt⟩) := by
  unfold Host.gather
  congr 1
  funext a
  refine Fin.ext ?_
  match a with
  | ⟨0, _⟩ => exact gather_rows_row wf j idx
  | ⟨1, _⟩ => exact gather_rows_col wf j idx

/-- A ROW GATHER COMMUTES WITH AN ENTRYWISE MAP THAT MAY READ THE COLUMN: gathering the rows of the table
    `(n, c) ↦ f (x[n, c]) c` is applying `f · c` at column `c` of the gathered rows of `x`, since the gather reads
    result column `c` from operand column `c`. -/
theorem gather_rows_map {N K M C w : Nat}
    (wf : GatherDims.WF ⟨2, ![N, C]⟩ ⟨3, ![K, M, 1]⟩ ⟨3, ![K, M, C]⟩ [2] [0] [] [0] [] 2 ![1, C])
    (f : α → Fin C → β) (x : (⟨2, ![N, C]⟩ : Shape).Idx → α) (idx : IVec ⟨3, ![K, M, 1]⟩ w) :
    Host.gather (rowsDims N K M C wf) (fun i => f (x i) (i 1)) idx
      = fun j => f (Host.gather (rowsDims N K M C wf) x idx j) (j 2) := by
  funext j
  show f (x ((rowsDims N K M C wf).operandIdx j idx)) (((rowsDims N K M C wf).operandIdx j idx) 1)
    = f (x ((rowsDims N K M C wf).operandIdx j idx)) (j 2)
  congr 1
  exact Fin.ext (gather_rows_col wf j idx)

/-- The same with the column read as a natural number: gathering the rows of `(n, c) ↦ g (x[n, c]) c` is applying
    `g · c` at column `c` of the gathered rows of `x`. -/
theorem gather_rows_map_val {N K M C w : Nat}
    (wf : GatherDims.WF ⟨2, ![N, C]⟩ ⟨3, ![K, M, 1]⟩ ⟨3, ![K, M, C]⟩ [2] [0] [] [0] [] 2 ![1, C])
    (g : α → Nat → β) (x : (⟨2, ![N, C]⟩ : Shape).Idx → α) (idx : IVec ⟨3, ![K, M, 1]⟩ w) :
    Host.gather (rowsDims N K M C wf) (fun i => g (x i) (i 1).val) idx
      = fun j => g (Host.gather (rowsDims N K M C wf) x idx j) (j 2).val := by
  funext j
  show g (x ((rowsDims N K M C wf).operandIdx j idx)) (((rowsDims N K M C wf).operandIdx j idx) 1).val
    = g (x ((rowsDims N K M C wf).operandIdx j idx)) (j 2).val
  rw [gather_rows_col wf j idx]

/-- The general form: gathering the rows of any table `y` whose entry at `(n, c)` is `F (x[n, c]) c` for a
    pointwise rule `F` indexed by the column as a natural number below `C`. Stated pointwise, for a table given
    by its entries rather than by a `fun`. -/
theorem gather_rows_congr {N K M C w : Nat}
    (wf : GatherDims.WF ⟨2, ![N, C]⟩ ⟨3, ![K, M, 1]⟩ ⟨3, ![K, M, C]⟩ [2] [0] [] [0] [] 2 ![1, C])
    (g : α → Nat → β) (x : (⟨2, ![N, C]⟩ : Shape).Idx → α) (y : (⟨2, ![N, C]⟩ : Shape).Idx → β)
    (hy : ∀ i, y i = g (x i) (i 1).val) (idx : IVec ⟨3, ![K, M, 1]⟩ w) (j : (⟨3, ![K, M, C]⟩ : Shape).Idx) :
    Host.gather (rowsDims N K M C wf) y idx j = g (Host.gather (rowsDims N K M C wf) x idx j) (j 2).val := by
  have hyx : y = fun i => g (x i) (i 1).val := funext hy
  rw [hyx, gather_rows_map_val wf g x idx]

-- the instance a program of these extents prints: its record is `rowsDims` by unfolding
example (wf : GatherDims.WF ⟨2, ![200000, 64]⟩ ⟨3, ![27, 100000, 1]⟩ ⟨3, ![27, 100000, 64]⟩ [2] [0] [] [0] [] 2 ![1, 64]) :
    ({ offsetDims := [2], collapsedSliceDims := [0], operandBatchingDims := [], startIndicesBatchingDims := [],
       startIndexMap := [0], indexVectorDim := 2, sliceSizes := ![1, 64], wf := wf } :
      GatherDims ⟨2, ![200000, 64]⟩ ⟨3, ![27, 100000, 1]⟩ ⟨3, ![27, 100000, 64]⟩)
      = rowsDims 200000 27 100000 64 wf := rfl

end Rows

end Cert.LibGatherRows

end
-- ==== Proof.RefMid.lean ====
/-
  THE MIDDLE STAGE OF THE REFERENCE: inference batch norm followed by a rectifier, applied to a [200000, 64] array
  with per-channel parameters, and then a row gather.

  Every parameter array p : [64] enters the stage broadcast along the rows, so entry (n, c) of the stage reads p at c
  only: the stage is the entrywise map h ↦ max (((h − μ c) · rsqrt (v c + ε)) · γ c + β c) 0 at column c
  (`Cert.Spec.bnReluAt`). A row gather reads result column c from operand column c, so it commutes with the stage.
-/
import proofs.«160069_j68350109548654_2_alg».proof.ReferenceIdeal
import proofs.«160069_j68350109548654_2_alg».proof.Proof.Gen.ReferenceIdeal
import proofs.«160069_j68350109548654_2_alg».proof.Proof.Spec
import proofs.«160069_j68350109548654_2_alg».proof.Proof.LibGatherRows
import Idealize.ShloMosaic.Lib.Pipeline.Value
import Idealize.ShloMosaic.Lib.ValueIdx
import Idealize.ShloMosaic.PureOps.Ideal.Laws

noncomputable section

namespace Cert.RefMid

open Cert.ReferenceIdeal Cert.ReferenceIdeal.Gen Idealize.ShloMosaic Idealize.ShloMosaic.TcCoe Idealize.SL.Sem
  Idealize.ShloMosaic.StableHlo Idealize.ShloMosaic.ValueIdx

/-- A per-channel array broadcast along the rows, read at (n, c): the array at c. -/
theorem bcastRows_apply {α : Type} (p : S64.Idx → α) (i : S200000x64.Idx) :
    broadcastInDim S200000x64 ![0, 1] bcast_S1x64_S200000x64_0_1 (broadcastInDim S1x64 ![1] bcast_S64_S1x64_1 p) i
      = p (ix1 (n := 64) (i 1)) := by
  refine (broadcastInDim_apply _ bcast_S1x64_S200000x64_0_1 _ i
    (ix2 (n0 := 1) (n1 := 64) ⟨0, Nat.one_pos⟩ (i 1)) ?_).trans ?_
  · intro a
    match a with
    | ⟨0, _⟩ => show 0 = if (1 : Nat) = 1 then 0 else (i 0).val; rw [if_pos rfl]
    | ⟨1, _⟩ => show (i 1).val = if (64 : Nat) = 1 then 0 else (i 1).val; rw [if_neg (by decide)]
  · refine broadcastInDim_apply _ bcast_S64_S1x64_1 p _ _ ?_
    intro a
    match a with
    | ⟨0, _⟩ => show (i 1).val = if (64 : Nat) = 1 then 0 else (i 1).val; rw [if_neg (by decide)]

/-- THE STAGE AS AN ENTRYWISE MAP: the whole-array chain of the reference (subtract the broadcast mean, multiply by
    the broadcast reciprocal square root of variance plus ε, multiply by the broadcast scale, add the broadcast
    shift, take the maximum with the zero array) is, at entry (n, c), `bnReluAt` of the entry of `H` at column c. -/
theorem bnRelu_whole (H : FVec Ideal S200000x64 .f32) (γ β μ v : FVec Ideal S64 .f32) :
    maximumf (addf (mulf (mulf (subf H
        (broadcastInDim S200000x64 ![0, 1] bcast_S1x64_S200000x64_0_1 (broadcastInDim S1x64 ![1] bcast_S64_S1x64_1 μ)))
        (broadcastInDim S200000x64 ![0, 1] bcast_S1x64_S200000x64_0_1 (broadcastInDim S1x64 ![1] bcast_S64_S1x64_1 (Host.rsqrt (addf v (broadcastInDim S64 ![] bcast_S_S64 (constant S_ .f32 0x3727C5AC#32)))))))
        (broadcastInDim S200000x64 ![0, 1] bcast_S1x64_S200000x64_0_1 (broadcastInDim S1x64 ![1] bcast_S64_S1x64_1 γ)))
        (broadcastInDim S200000x64 ![0, 1] bcast_S1x64_S200000x64_0_1 (broadcastInDim S1x64 ![1] bcast_S64_S1x64_1 β)))
        (broadcastInDim S200000x64 ![] bcast_S_S200000x64 (constant S_ .f32 0x00000000#32))
      = fun i => Cert.Spec.bnReluAt γ β μ v (H i) (i 1) := by
  funext i
  rw [maximumf_apply, addf_apply, mulf_apply, mulf_apply, subf_apply, bcastRows_apply, bcastRows_apply,
    bcastRows_apply, bcastRows_apply]
  rfl

/-- The gather record of the reference is the row gather's dimension numbers at N = 200000, K = 27, M = 100000,
    C = 64. -/
theorem gather_eq_rowsDims :
    gather_S200000x64_S27x100000x1_S27x100000x64_2_0_n_n_0_2_164
      = Cert.LibGatherRows.rowsDims 200000 27 100000 64
          gather_S200000x64_S27x100000x1_S27x100000x64_2_0_n_n_0_2_164.wf := rfl

/-- THE ROW GATHER COMMUTES WITH THE STAGE: gathering rows of the stage's output is applying `bnReluAt`, at the
    column of the result, to the gathered rows of `H`: the stage is entrywise with per-column parameters and the
    gather reads result column c from operand column c. -/
theorem gather_bnRelu (H : FVec Ideal S200000x64 .f32) (γ β μ v : FVec Ideal S64 .f32) (idx : IVec S27x100000x1 32) :
    Host.gather gather_S200000x64_S27x100000x1_S27x100000x64_2_0_n_n_0_2_164
      (maximumf (addf (mulf (mulf (subf H
        (broadcastInDim S200000x64 ![0, 1] bcast_S1x64_S200000x64_0_1 (broadcastInDim S1x64 ![1] bcast_S64_S1x64_1 μ)))
        (broadcastInDim S200000x64 ![0, 1] bcast_S1x64_S200000x64_0_1 (broadcastInDim S1x64 ![1] bcast_S64_S1x64_1 (Host.rsqrt (addf v (broadcastInDim S64 ![] bcast_S_S64 (constant S_ .f32 0x3727C5AC#32)))))))
        (broadcastInDim S200000x64 ![0, 1] bcast_S1x64_S200000x64_0_1 (broadcastInDim S1x64 ![1] bcast_S64_S1x64_1 γ)))
        (broadcastInDim S200000x64 ![0, 1] bcast_S1x64_S200000x64_0_1 (broadcastInDim S1x64 ![1] bcast_S64_S1x64_1 β)))
        (broadcastInDim S200000x64 ![] bcast_S_S200000x64 (constant S_ .f32 0x00000000#32))) idx
      = fun j => Cert.Spec.bnReluAt γ β μ v
          (Host.gather gather_S200000x64_S27x100000x1_S27x100000x64_2_0_n_n_0_2_164 H idx j) (j 2) := by
  rw [bnRelu_whole]
  exact Cert.LibGatherRows.gather_rows_map
    gather_S200000x64_S27x100000x1_S27x100000x64_2_0_n_n_0_2_164.wf (Cert.Spec.bnReluAt γ β μ v) H idx

end Cert.RefMid

end
-- ==== Proof.RefValue.lean ====
/-
  THE VALUE OF THE REFERENCE: its result array, as a function of its thirteen arguments, is the common form `Cert.Mid.out`.

  Two facts carry it. The batched contraction of the reference (batch axis 0 of both operands, contracting axis 2 of
  the left operand with axis 1 of the right) is, on the extended reals, the per-offset matrix product
  (k, m, d) ↦ ∑ c, g (k, m, c) · w (k, c, d). And the first batch norm and rectifier, applied to the whole
  [200000, 64] array before the second row gather, may be applied to the gathered rows instead: they act entrywise with
  per-channel parameters and the gather reads result column c from operand column c.
-/
import proofs.«160069_j68350109548654_2_alg».proof.Proof.Gen.ReferenceIdeal.Run
import proofs.«160069_j68350109548654_2_alg».proof.Proof.Gen.ReferenceIdeal.Read
import proofs.«160069_j68350109548654_2_alg».proof.Proof.Mid
import proofs.«160069_j68350109548654_2_alg».proof.Proof.RefMid
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx

/-- THE CONTRACTION IS THE PER-OFFSET MATRIX PRODUCT: at (k, m, d) the sum over the one contracting coordinate c of
    g (k, m, c) · w (k, c, d) — the left operand keeps the batch coordinate k and the row m, the right operand the
    batch coordinate k and the column d. -/
theorem dotGeneral_eq_gemm (g : FVec Ideal S27x100000x64 .f32) (w : FVec Ideal S27x64x64 .f32) :
    Host.dotGeneral dot_S27x100000x64_S27x64x64_S27x100000x64_2_1_1_2_0_0 none g w = Cert.Spec.gemm g w := by
  funext i
  simp only [Host.dotGeneral]
  rw [Ideal.dotGeneral_apply, ← Equiv.sum_comp (ValueIdx.contrEquiv1 dot_S27x100000x64_S27x64x64_S27x100000x64_2_1_1_2_0_0 64 rfl rfl).symm]
  unfold Cert.Spec.gemm
  refine Finset.sum_congr rfl fun k _ => ?_
  have hk := ValueIdx.contrEquiv1_symm_val dot_S27x100000x64_S27x64x64_S27x100000x64_2_1_1_2_0_0 64 rfl rfl k
  have el : dot_S27x100000x64_S27x64x64_S27x100000x64_2_1_1_2_0_0.lhsIdx i ((ValueIdx.contrEquiv1 dot_S27x100000x64_S27x64x64_S27x100000x64_2_1_1_2_0_0 64 rfl rfl).symm k) = ix3 (i 0) (i 1) k :=
    funext fun a => Fin.ext (by
      match a with
      | ⟨0, _⟩ => exact Cert.ReferenceIdeal.Read.lhs_main_v7_0 _ _
      | ⟨1, _⟩ => exact Cert.ReferenceIdeal.Read.lhs_main_v7_1 _ _
      | ⟨2, _⟩ => exact (Cert.ReferenceIdeal.Read.lhs_main_v7_2 _ _).trans hk)
  have er : dot_S27x100000x64_S27x64x64_S27x100000x64_2_1_1_2_0_0.rhsIdx i ((ValueIdx.contrEquiv1 dot_S27x100000x64_S27x64x64_S27x100000x64_2_1_1_2_0_0 64 rfl rfl).symm k) = ix3 (i 0) k (i 2) :=
    funext fun a => Fin.ext (by
      match a with
      | ⟨0, _⟩ => exact Cert.ReferenceIdeal.Read.rhs_main_v7_0 _ _
      | ⟨1, _⟩ => exact (Cert.ReferenceIdeal.Read.rhs_main_v7_1 _ _).trans hk
      | ⟨2, _⟩ => exact Cert.ReferenceIdeal.Read.rhs_main_v7_2 _ _)
  exact congrArg₂ (· * ·) (congrArg g el) (congrArg w er)

/-- The matrix product of entrywise normalised and rectified rows is the product that normalises and rectifies each
    entry it reads: entry (k, m, c) of the left operand is read at column c. -/
theorem gemm_bnRelu (γ β μ v : FVec Ideal S64 .f32) (G : FVec Ideal S27x100000x64 .f32) (w : FVec Ideal S27x64x64 .f32) :
    Cert.Spec.gemm (fun j => Cert.Spec.bnReluAt γ β μ v (G j) (j 2)) w = Cert.Spec.gemmBn γ β μ v G w := rfl

set_option maxRecDepth 8192 in
/-- THE RESULT OF THE REFERENCE IS THE COMMON FORM of its arguments: rewrite the normalised, rectified and then gathered
    array as the gathered and then normalised, rectified one, and both contractions as matrix products. -/
theorem ref_value (m : (ℓ : Loc nD τ sig) → Buf (Elt Ideal) ℓ) (c : Dev nD) :
    Cert.ReferenceIdeal.Value.res_main_v68 (F := Ideal) m c
      = Cert.Mid.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v68
  rw [Cert.RefMid.gather_bnRelu, dotGeneral_eq_gemm, dotGeneral_eq_gemm, gemm_bnRelu]
  rfl

end Cert.RefValue

end
-- ==== Proof.lean ====
/-
  The certificate of a residual block of two sparse convolutions: the proof of `Cert.Claim`.

  THE PROGRAMS. The arguments are the features x : [200000, 64], two stacks of weight matrices a1, a2 : [27, 64, 64],
  two sets of batch-norm parameters γ, β, μ, v : [64], and an input map and an output map : [27, 100000] of row
  numbers (a negative entry wraps by 200000). A sparse convolution of an array h : [200000, 64] is gather –
  per-offset product – scatter-add: row (k, m) of the gathered array is row inmap[k, m] of h; the product multiplies
  the k-th [100000, 64] slab by the k-th [64, 64] weight matrix; row (k, m) of the product is added into row
  outmap[k, m] of a zero [200000, 64] array. With bn (h)[n, c] = (h[n, c] − μ c) · rsqrt (v c + ε) · γ c + β c, the
  reference computes

      y1 = conv (x, a1);   h = max (bn1 y1, 0);   y2 = conv (h, a2);   out = max (bn2 y2 + x, 0)

  by host operations throughout. The kernel program does the gathers and the scatter-adds by the same host
  operations and has three kernel regions between them: the first per-offset product, over tiles of 20000 rows; the
  second per-offset product, over tiles of 10000 rows, which applies bn1 and the rectifier to the GATHERED rows of
  y1 inside the region instead of to y1 before the gather; and the last batch norm, residual sum and rectifier,
  over the arrays read as [100000, 128] (two rows of 64 channels per row of 128).

  THE COMMON FORM. At the ideal instance (a float is an extended real, every operation exact) the result of either
  program is `Cert.Mid.out` of the thirteen arguments: `Cert.RefValue.ref_value` for the reference,
  `Cert.KernelIdeal.KValue.kernel_value` for the kernel program. Three laws join the two programs:
  * batch norm and the rectifier act entrywise with per-channel parameters, and a row gather reads result column c
    from operand column c, so they commute with the row gather (`Cert.LibGatherRows.gather_rows_map`,
    `Cert.RefMid.gather_bnRelu`);
  * a matrix product accumulated into a zero accumulator is the contraction of the reference: at (k, m, d) the sum
    over c of g (k, m, c) · w (k, c, d) (`Cert.RefValue.dotGeneral_eq_gemm`);
  * a change of float format is the identity on the extended reals, so the narrowing of the operands of each
    product and the widening of the gathered rows disappear.
  Each program runs and leaves its arguments unchanged (the frames); the idealized kernel program is the kernel
  program's own text read at the ideal instance, so what the idealization preserves is trivial.
-/
import proofs.«160069_j68350109548654_2_alg».proof.Defs
import proofs.«160069_j68350109548654_2_alg».proof.Proof.Gen.Kernel
import proofs.«160069_j68350109548654_2_alg».proof.Proof.Gen.Kernel.Skeleton
import proofs.«160069_j68350109548654_2_alg».proof.Proof.Gen.Kernel.Launch
import proofs.«160069_j68350109548654_2_alg».proof.Proof.Gen.Kernel.Points
import proofs.«160069_j68350109548654_2_alg».proof.Proof.Gen.Kernel.Frame
import proofs.«160069_j68350109548654_2_alg».proof.Proof.Gen.KernelIdeal
import proofs.«160069_j68350109548654_2_alg».proof.Proof.Gen.KernelIdeal.Skeleton
import proofs.«160069_j68350109548654_2_alg».proof.Proof.Gen.KernelIdeal.Launch
import proofs.«160069_j68350109548654_2_alg».proof.Proof.Gen.KernelIdeal.Points
import proofs.«160069_j68350109548654_2_alg».proof.Proof.Gen.KernelIdeal.Frame
import proofs.«160069_j68350109548654_2_alg».proof.Proof.Gen.ReferenceIdeal
import proofs.«160069_j68350109548654_2_alg».proof.Proof.Gen.ReferenceIdeal.Run
import proofs.«160069_j68350109548654_2_alg».proof.Proof.Gen.ReferenceIdeal.Read
import proofs.«160069_j68350109548654_2_alg».proof.Proof.Gen.Pre_finite_inputs
import proofs.«160069_j68350109548654_2_alg».proof.Proof.KRun
import proofs.«160069_j68350109548654_2_alg».proof.Proof.KValue
import proofs.«160069_j68350109548654_2_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does the kernel program read at the ideal instance. -/
theorem frame_ki : Cert.frame_KernelIdeal := fun m ρ _ => Cert.KernelIdeal.Gen.frame m ρ

/-- So does the reference: its run, without the clause on the result. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the arguments, both programs end with the common form
    `Cert.Mid.out` of the arguments in their result buffers, and with the arguments unchanged. -/
theorem algebraic : Cert.algebraic_KernelIdeal_ReferenceIdeal := by
  intro m ρ m' ρ' _ hagree
  refine ⟨fun c => Cert.Mid.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KValue.kernel_value m ρ c), (h c).2⟩)
      (Cert.KernelIdeal.KRun.run_value (F := Ideal) m ρ)
  · refine (θ_run Cert.ReferenceIdeal.defs _ _).mono
      (fun _ h c => ⟨(h c).1.trans ((Cert.RefValue.ref_value m' c).trans ?_), (h c).2⟩)
      (Cert.ReferenceIdeal.Value.run (F := Ideal) m' ρ')
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
